-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16 : Shape := ⟨2, ![16, 16]⟩
abbrev S3200000 : Shape := ⟨1, ![3200000]⟩
abbrev S2x3200000 : Shape := ⟨2, ![2, 3200000]⟩
abbrev S100000 : Shape := ⟨1, ![100000]⟩
abbrev S1x3200000 : Shape := ⟨2, ![1, 3200000]⟩
abbrev S_ : Shape := ⟨0, ![]⟩
abbrev S3200000x1 : Shape := ⟨2, ![3200000, 1]⟩
abbrev S256 : Shape := ⟨1, ![256]⟩

class Facts : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S16x16 : S_.BroadcastsInDim S16x16 (![] : Fin 0 → Fin S16x16.rank)
  transposes_S16x16_S16x16_1_0 : S16x16.Transposes [1, 0] S16x16
  shapeCasts_S16x16_S256 : S16x16.ShapeCasts S256
  reducesTo_S16x16_S_d0_1 : S16x16.ReducesTo [0, 1] S_
  h_S_ : 0 < S_.numel
  reducesTo_S3200000_S_d0 : S3200000.ReducesTo [0] S_
  gather_S100000_S3200000x1_S3200000_n_0_n_n_0_1_1_wf : GatherDims.WF S100000 S3200000x1 S3200000 [] [0] [] [0] [] 1 ![1]
  gather_S256_S3200000x1_S3200000_n_0_n_n_0_1_1_wf : GatherDims.WF S256 S3200000x1 S3200000 [] [0] [] [0] [] 1 ![1]

variable [Facts]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S256_S3200000x1_S3200000_n_0_n_n_0_1_1 : GatherDims S256 S3200000x1 S3200000 where
  offsetDims := []
  collapsedSliceDims := [0]
  operandBatchingDims := []
  startIndicesBatchingDims := []
  startIndexMap := [0]
  indexVectorDim := 1
  sliceSizes := ![1]
  wf := gather_S256_S3200000x1_S3200000_n_0_n_n_0_1_1_wf
def fn_part5 {F : FTy → Type} [FloatOps F] (main_arg3 : FVec F S3200000 .f32) (main_v43 : FVec F S3200000 .f32) (main_v69 : FVec F S3200000 .f32) (main_v88 : IVec S_ 1) (main_v91 : IVec S3200000 1) (main_c_25 : IVec S_ 1) : IVec S_ 1 :=
  let main_v92 : IVec S_ 1 := (fun x v => Host.reduce IntOp.andi x v reducesTo_S3200000_S_d0 h_S_) main_v91 main_c_25
  let main_v93 : IVec S_ 1 := andi main_v88 main_v92
  let main_cst_26 : FVec F S_ .f32 := constant S_ .f32 0x00000000#32
  let main_v94 : FVec F S3200000 .f32 := broadcastInDim S3200000 ![] bcast_S_S3200000 main_cst_26
  let main_v95 : IVec S3200000 1 := cmpf .une main_v43 main_v94
  let main_v96 : IVec S3200000 1 := cmpf .une main_arg3 main_v69
  let main_v97 : IVec S3200000 1 := ori main_v95 main_v96
  let main_c_27 : IVec S_ 1 := constantI S_ 1 1#1
  let main_v98 : IVec S_ 1 := (fun x v => Host.reduce IntOp.andi x v reducesTo_S3200000_S_d0 h_S_) main_v97 main_c_27
  let main_v99 : IVec S_ 1 := andi main_v93 main_v98
  main_v99

def fn_part4 {F : FTy → Type} [FloatOps F] (main_arg2 : FVec F S16x16 .f32) (main_arg3 : FVec F S3200000 .f32) (main_arg4 : FVec F S3200000 .f32) (main_v43 : FVec F S3200000 .f32) (main_v69 : FVec F S3200000 .f32) (main_v73 : IVec S_ 1) (main_v74 : FVec F S16x16 .f32) (main_cst_18 : FVec F S_ .f32) : IVec S_ 1 :=
  let main_v75 : FVec F S16x16 .f32 := broadcastInDim S16x16 ![] bcast_S_S16x16 main_cst_18
  let main_v76 : IVec S16x16 1 := cmpf .olt main_v74 main_v75
  let main_c_19 : IVec S_ 1 := constantI S_ 1 1#1
  let main_v77 : IVec S_ 1 := (fun x v => Host.reduce IntOp.andi x v reducesTo_S16x16_S_d0_1 h_S_) main_v76 main_c_19
  let main_v78 : IVec S_ 1 := andi main_v73 main_v77
  let main_v79 : FVec F S16x16 .f32 := Host.absf main_arg2
  let main_cst_20 : FVec F S_ .f32 := constant S_ .f32 0x7F800000#32
  let main_v80 : FVec F S16x16 .f32 := broadcastInDim S16x16 ![] bcast_S_S16x16 main_cst_20
  let main_v81 : IVec S16x16 1 := cmpf .olt main_v79 main_v80
  let main_c_21 : IVec S_ 1 := constantI S_ 1 1#1
  let main_v82 : IVec S_ 1 := (fun x v => Host.reduce IntOp.andi x v reducesTo_S16x16_S_d0_1 h_S_) main_v81 main_c_21
  let main_v83 : IVec S_ 1 := andi main_v78 main_v82
  let main_v84 : FVec F S3200000 .f32 := Host.absf main_arg3
  let main_cst_22 : FVec F S_ .f32 := constant S_ .f32 0x7F800000#32
  let main_v85 : FVec F S3200000 .f32 := broadcastInDim S3200000 ![] bcast_S_S3200000 main_cst_22
  let main_v86 : IVec S3200000 1 := cmpf .olt main_v84 main_v85
  let main_c_23 : IVec S_ 1 := constantI S_ 1 1#1
  let main_v87 : IVec S_ 1 := (fun x v => Host.reduce IntOp.andi x v reducesTo_S3200000_S_d0 h_S_) main_v86 main_c_23
  let main_v88 : IVec S_ 1 := andi main_v83 main_v87
  let main_v89 : FVec F S3200000 .f32 := Host.absf main_arg4
  let main_cst_24 : FVec F S_ .f32 := constant S_ .f32 0x7F800000#32
  let main_v90 : FVec F S3200000 .f32 := broadcastInDim S3200000 ![] bcast_S_S3200000 main_cst_24
  let main_v91 : IVec S3200000 1 := cmpf .olt main_v89 main_v90
  let main_c_25 : IVec S_ 1 := constantI S_ 1 1#1
  fn_part5 (F := F) main_arg3 main_v43 main_v69 main_v88 main_v91 main_c_25

def fn_part3 {F : FTy → Type} [FloatOps F] (main_arg0 : FVec F S16x16 .f32) (main_arg1 : FVec F S16x16 .f32) (main_arg2 : FVec F S16x16 .f32) (main_arg3 : FVec F S3200000 .f32) (main_arg4 : FVec F S3200000 .f32) (main_v8 : IVec S3200000 32) (main_v17 : IVec S3200000 32) (main_v43 : FVec F S3200000 .f32) (main_v57 : FVec F S256 .f32) : IVec S_ 1 :=
  let main_c_12 : IVec S_ 32 := constantI S_ 32 16#32
  let main_v58 : IVec S3200000 32 := broadcastInDim S3200000 ![] bcast_S_S3200000 main_c_12
  let main_v59 : IVec S3200000 32 := muli main_v8 main_v58
  let main_v60 : IVec S3200000 32 := addi main_v59 main_v17
  let main_c_13 : IVec S_ 32 := constantI S_ 32 0#32
  let main_v61 : IVec S3200000 32 := broadcastInDim S3200000 ![] bcast_S_S3200000 main_c_13
  let main_v62 : IVec S3200000 1 := cmpi .slt main_v60 main_v61
  let main_c_14 : IVec S_ 32 := constantI S_ 32 256#32
  let main_v63 : IVec S3200000 32 := broadcastInDim S3200000 ![] bcast_S_S3200000 main_c_14
  let main_v64 : IVec S3200000 32 := addi main_v60 main_v63
  let main_v65 : IVec S3200000 32 := select main_v62 main_v64 main_v60
  let main_v66 : IVec S3200000x1 32 := broadcastInDim S3200000x1 ![0] bcast_S3200000_S3200000x1_0 main_v65
  let main_v67 : FVec F S3200000 .f32 := (fun x i => Host.gather gather_S256_S3200000x1_S3200000_n_0_n_n_0_1_1 x i) main_v57 main_v66
  let main_cst_15 : FVec F S_ .f32 := constant S_ .f32 0x00000000#32
  let main_v68 : FVec F S3200000 .f32 := broadcastInDim S3200000 ![] bcast_S_S3200000 main_cst_15
  let main_v69 : FVec F S3200000 .f32 := maximumf main_v67 main_v68
  let main_v70 : FVec F S16x16 .f32 := Host.absf main_arg0
  let main_cst_16 : FVec F S_ .f32 := constant S_ .f32 0x7F800000#32
  let main_v71 : FVec F S16x16 .f32 := broadcastInDim S16x16 ![] bcast_S_S16x16 main_cst_16
  let main_v72 : IVec S16x16 1 := cmpf .olt main_v70 main_v71
  let main_c_17 : IVec S_ 1 := constantI S_ 1 1#1
  let main_v73 : IVec S_ 1 := (fun x v => Host.reduce IntOp.andi x v reducesTo_S16x16_S_d0_1 h_S_) main_v72 main_c_17
  let main_v74 : FVec F S16x16 .f32 := Host.absf main_arg1
  let main_cst_18 : FVec F S_ .f32 := constant S_ .f32 0x7F800000#32
  fn_part4 (F := F) main_arg2 main_arg3 main_arg4 main_v43 main_v69 main_v73 main_v74 main_cst_18

def fn_part2 {F : FTy → Type} [FloatOps F] (main_arg0 : FVec F S16x16 .f32) (main_arg1 : FVec F S16x16 .f32) (main_arg2 : FVec F S16x16 .f32) (main_arg3 : FVec F S3200000 .f32) (main_arg4 : FVec F S3200000 .f32) (main_v8 : IVec S3200000 32) (main_v17 : IVec S3200000 32) (main_v31 : FVec F S256 .f32) (main_v34 : IVec S3200000 32) (main_v36 : IVec S3200000 1) (main_v37 : IVec S3200000 32) : IVec S_ 1 :=
  let main_v38 : IVec S3200000 32 := addi main_v34 main_v37
  let main_v39 : IVec S3200000 32 := select main_v36 main_v38 main_v34
  let main_v40 : IVec S3200000x1 32 := broadcastInDim S3200000x1 ![0] bcast_S3200000_S3200000x1_0 main_v39
  let main_v41 : FVec F S3200000 .f32 := (fun x i => Host.gather gather_S256_S3200000x1_S3200000_n_0_n_n_0_1_1 x i) main_v31 main_v40
  let main_cst_8 : FVec F S_ .f32 := constant S_ .f32 0x00000000#32
  let main_v42 : FVec F S3200000 .f32 := broadcastInDim S3200000 ![] bcast_S_S3200000 main_cst_8
  let main_v43 : FVec F S3200000 .f32 := maximumf main_v41 main_v42
  let main_v44 : IVec S16x16 32 := iotaInDim S16x16 32 0
  let main_v45 : IVec S16x16 32 := iotaInDim S16x16 32 1
  let main_cst_9 : FVec F S_ .f32 := constant S_ .f32 0x00000000#32
  let main_v46 : FVec F S16x16 .f32 := broadcastInDim S16x16 ![] bcast_S_S16x16 main_cst_9
  let main_c_10 : IVec S_ 32 := constantI S_ 32 4294967295#32
  let main_v47 : IVec S16x16 32 := broadcastInDim S16x16 ![] bcast_S_S16x16 main_c_10
  let main_v48 : IVec S16x16 32 := addi main_v44 main_v47
  let main_v49 : IVec S16x16 1 := cmpi .sge main_v48 main_v45
  let main_v50 : FVec F S16x16 .f32 := select main_v49 main_v46 main_arg1
  let main_c_11 : IVec S_ 32 := constantI S_ 32 0#32
  let main_v51 : IVec S16x16 32 := broadcastInDim S16x16 ![] bcast_S_S16x16 main_c_11
  let main_v52 : IVec S16x16 32 := addi main_v44 main_v51
  let main_v53 : IVec S16x16 1 := cmpi .sge main_v52 main_v45
  let main_v54 : FVec F S16x16 .f32 := select main_v53 main_v46 main_arg1
  let main_v55 : FVec F S16x16 .f32 := (transpose S16x16 [1, 0] · transposes_S16x16_S16x16_1_0) main_v54
  let main_v56 : FVec F S16x16 .f32 := addf main_v50 main_v55
  let main_v57 : FVec F S256 .f32 := shapeCast S256 main_v56 shapeCasts_S16x16_S256
  fn_part3 (F := F) main_arg0 main_arg1 main_arg2 main_arg3 main_arg4 main_v8 main_v17 main_v43 main_v57

def fn_part1 {F : FTy → Type} [FloatOps F] (main_arg0 : FVec F S16x16 .f32) (main_arg1 : FVec F S16x16 .f32) (main_arg2 : FVec F S16x16 .f32) (main_arg3 : FVec F S3200000 .f32) (main_arg4 : FVec F S3200000 .f32) (main_v8 : IVec S3200000 32) (main_v17 : IVec S3200000 32) (main_v18 : IVec S16x16 32) (main_v19 : IVec S16x16 32) : IVec S_ 1 :=
  let main_cst : FVec F S_ .f32 := constant S_ .f32 0x00000000#32
  let main_v20 : FVec F S16x16 .f32 := broadcastInDim S16x16 ![] bcast_S_S16x16 main_cst
  let main_c_3 : IVec S_ 32 := constantI S_ 32 4294967295#32
  let main_v21 : IVec S16x16 32 := broadcastInDim S16x16 ![] bcast_S_S16x16 main_c_3
  let main_v22 : IVec S16x16 32 := addi main_v18 main_v21
  let main_v23 : IVec S16x16 1 := cmpi .sge main_v22 main_v19
  let main_v24 : FVec F S16x16 .f32 := select main_v23 main_v20 main_arg0
  let main_c_4 : IVec S_ 32 := constantI S_ 32 0#32
  let main_v25 : IVec S16x16 32 := broadcastInDim S16x16 ![] bcast_S_S16x16 main_c_4
  let main_v26 : IVec S16x16 32 := addi main_v18 main_v25
  let main_v27 : IVec S16x16 1 := cmpi .sge main_v26 main_v19
  let main_v28 : FVec F S16x16 .f32 := select main_v27 main_v20 main_arg0
  let main_v29 : FVec F S16x16 .f32 := (transpose S16x16 [1, 0] · transposes_S16x16_S16x16_1_0) main_v28
  let main_v30 : FVec F S16x16 .f32 := addf main_v24 main_v29
  let main_v31 : FVec F S256 .f32 := shapeCast S256 main_v30 shapeCasts_S16x16_S256
  let main_c_5 : IVec S_ 32 := constantI S_ 32 16#32
  let main_v32 : IVec S3200000 32 := broadcastInDim S3200000 ![] bcast_S_S3200000 main_c_5
  let main_v33 : IVec S3200000 32 := muli main_v8 main_v32
  let main_v34 : IVec S3200000 32 := addi main_v33 main_v17
  let main_c_6 : IVec S_ 32 := constantI S_ 32 0#32
  let main_v35 : IVec S3200000 32 := broadcastInDim S3200000 ![] bcast_S_S3200000 main_c_6
  let main_v36 : IVec S3200000 1 := cmpi .slt main_v34 main_v35
  let main_c_7 : IVec S_ 32 := constantI S_ 32 256#32
  let main_v37 : IVec S3200000 32 := broadcastInDim S3200000 ![] bcast_S_S3200000 main_c_7
  fn_part2 (F := F) main_arg0 main_arg1 main_arg2 main_arg3 main_arg4 main_v8 main_v17 main_v31 main_v34 main_v36 main_v37

def fn {F : FTy → Type} [FloatOps F] (main_arg0 : FVec F S16x16 .f32) (main_arg1 : FVec F S16x16 .f32) (main_arg2 : FVec F S16x16 .f32) (main_arg3 : FVec F S3200000 .f32) (main_arg4 : FVec F S3200000 .f32) (main_arg5 : IVec S2x3200000 32) (main_arg6 : IVec S100000 32) : IVec S_ 1 :=
  let main_v0 : IVec S1x3200000 32 := (extractStridedSlice S1x3200000 ![0, 0] · slices_S2x3200000_S1x3200000_0_0) main_arg5
  let main_v1 : IVec S3200000 32 := shapeCast S3200000 main_v0 shapeCasts_S1x3200000_S3200000
  let main_c : IVec S_ 32 := constantI S_ 32 0#32
  let main_v2 : IVec S3200000 32 := broadcastInDim S3200000 ![] bcast_S_S3200000 main_c
  let main_v3 : IVec S3200000 1 := cmpi .slt main_v1 main_v2
  let main_c_0 : IVec S_ 32 := constantI S_ 32 100000#32
  let main_v4 : IVec S3200000 32 := broadcastInDim S3200000 ![] bcast_S_S3200000 main_c_0
  let main_v5 : IVec S3200000 32 := addi main_v1 main_v4
  let main_v6 : IVec S3200000 32 := select main_v3 main_v5 main_v1
  let main_v7 : IVec S3200000x1 32 := broadcastInDim S3200000x1 ![0] bcast_S3200000_S3200000x1_0 main_v6
  let main_v8 : IVec S3200000 32 := (fun x i => Host.gather gather_S100000_S3200000x1_S3200000_n_0_n_n_0_1_1 x i) main_arg6 main_v7
  let main_v9 : IVec S1x3200000 32 := (extractStridedSlice S1x3200000 ![1, 0] · slices_S2x3200000_S1x3200000_1_0) main_arg5
  let main_v10 : IVec S3200000 32 := shapeCast S3200000 main_v9 shapeCasts_S1x3200000_S3200000
  let main_c_1 : IVec S_ 32 := constantI S_ 32 0#32
  let main_v11 : IVec S3200000 32 := broadcastInDim S3200000 ![] bcast_S_S3200000 main_c_1
  let main_v12 : IVec S3200000 1 := cmpi .slt main_v10 main_v11
  let main_c_2 : IVec S_ 32 := constantI S_ 32 100000#32
  let main_v13 : IVec S3200000 32 := broadcastInDim S3200000 ![] bcast_S_S3200000 main_c_2
  let main_v14 : IVec S3200000 32 := addi main_v10 main_v13
  let main_v15 : IVec S3200000 32 := select main_v12 main_v14 main_v10
  let main_v16 : IVec S3200000x1 32 := broadcastInDim S3200000x1 ![0] bcast_S3200000_S3200000x1_0 main_v15
  let main_v17 : IVec S3200000 32 := (fun x i => Host.gather gather_S100000_S3200000x1_S3200000_n_0_n_n_0_1_1 x i) main_arg6 main_v16
  let main_v18 : IVec S16x16 32 := iotaInDim S16x16 32 0
  let main_v19 : IVec S16x16 32 := iotaInDim S16x16 32 1
  fn_part1 (F := F) main_arg0 main_arg1 main_arg2 main_arg3 main_arg4 main_v8 main_v17 main_v18 main_v19
-- ==== Kernel.lean ====
abbrev S16x16 : Shape := ⟨2, ![16, 16]⟩
abbrev S3200000 : Shape := ⟨1, ![3200000]⟩
abbrev S2x3200000 : Shape := ⟨2, ![2, 3200000]⟩
abbrev S100000 : Shape := ⟨1, ![100000]⟩
abbrev S1x3200000 : Shape := ⟨2, ![1, 3200000]⟩
abbrev S_ : Shape := ⟨0, ![]⟩
abbrev S3200000x1 : Shape := ⟨2, ![3200000, 1]⟩
abbrev S256 : Shape := ⟨1, ![256]⟩
abbrev S25000x128 : Shape := ⟨2, ![25000, 128]⟩
abbrev S1000x128 : Shape := ⟨2, ![1000, 128]⟩
abbrev S100000x1 : Shape := ⟨2, ![100000, 1]⟩

abbrev nBuf : Space → Nat
  | .hbm => 154
  | .vmem => 12
  | .smem => 0
  | _ => 0

abbrev hbmTy0_0 (i : Nat) : BufTy := match i % 128 with
  | 0 => ⟨S16x16, .f32⟩
  | 1 => ⟨S16x16, .f32⟩
  | 2 => ⟨S16x16, .f32⟩
  | 3 => ⟨S3200000, .f32⟩
  | 4 => ⟨S3200000, .f32⟩
  | 5 => ⟨S2x3200000, .i32⟩
  | 6 => ⟨S100000, .i32⟩
  | 7 => ⟨S1x3200000, .i32⟩
  | 8 => ⟨S3200000, .i32⟩
  | 9 => ⟨S1x3200000, .i32⟩
  | 10 => ⟨S3200000, .i32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000, .i32⟩
  | 20 => ⟨S1x3200000, .i32⟩
  | 21 => ⟨S3200000, .i32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .i32⟩
  | 31 => ⟨S16x16, .i32⟩
  | 32 => ⟨S_, .i32⟩
  | 33 => ⟨S16x16, .i32⟩
  | 34 => ⟨S16x16, .i32⟩
  | 35 => ⟨S16x16, .i32⟩
  | 36 => ⟨S16x16, .i1⟩
  | 37 => ⟨S_, .f32⟩
  | 38 => ⟨S16x16, .f32⟩
  | 39 => ⟨S16x16, .f32⟩
  | 40 => ⟨S16x16, .i32⟩
  | 41 => ⟨S_, .i32⟩
  | 42 => ⟨S16x16, .i32⟩
  | 43 => ⟨S16x16, .i32⟩
  | 44 => ⟨S16x16, .i32⟩
  | 45 => ⟨S16x16, .i1⟩
  | 46 => ⟨S_, .f32⟩
  | 47 => ⟨S16x16, .f32⟩
  | 48 => ⟨S16x16, .f32⟩
  | 49 => ⟨S16x16, .f32⟩
  | 50 => ⟨S16x16, .f32⟩
  | 51 => ⟨S_, .f32⟩
  | 52 => ⟨S16x16, .f32⟩
  | 53 => ⟨S16x16, .f32⟩
  | 54 => ⟨S256, .f32⟩
  | 55 => ⟨S_, .i32⟩
  | 56 => ⟨S3200000, .i32⟩
  | 57 => ⟨S3200000, .i32⟩
  | 58 => ⟨S3200000, .i32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000, .f32⟩
  | 68 => ⟨S16x16, .i32⟩
  | 69 => ⟨S_, .i32⟩
  | 70 => ⟨S16x16, .i32⟩
  | 71 => ⟨S16x16, .i32⟩
  | 72 => ⟨S16x16, .i32⟩
  | 73 => ⟨S16x16, .i1⟩
  | 74 => ⟨S_, .f32⟩
  | 75 => ⟨S16x16, .f32⟩
  | 76 => ⟨S16x16, .f32⟩
  | 77 => ⟨S16x16, .i32⟩
  | 78 => ⟨S_, .i32⟩
  | 79 => ⟨S16x16, .i32⟩
  | 80 => ⟨S16x16, .i32⟩
  | 81 => ⟨S16x16, .i32⟩
  | 82 => ⟨S16x16, .i1⟩
  | 83 => ⟨S_, .f32⟩
  | 84 => ⟨S16x16, .f32⟩
  | 85 => ⟨S16x16, .f32⟩
  | 86 => ⟨S16x16, .f32⟩
  | 87 => ⟨S16x16, .f32⟩
  | 88 => ⟨S_, .f32⟩
  | 89 => ⟨S16x16, .f32⟩
  | 90 => ⟨S16x16, .f32⟩
  | 91 => ⟨S256, .f32⟩
  | 92 => ⟨S_, .i32⟩
  | 93 => ⟨S3200000, .i32⟩
  | 94 => ⟨S3200000, .i32⟩
  | 95 => ⟨S3200000, .i32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000, .f32⟩
  | 105 => ⟨S16x16, .i32⟩
  | 106 => ⟨S_, .i32⟩
  | 107 => ⟨S16x16, .i32⟩
  | 108 => ⟨S16x16, .i32⟩
  | 109 => ⟨S16x16, .i32⟩
  | 110 => ⟨S16x16, .i1⟩
  | 111 => ⟨S_, .f32⟩
  | 112 => ⟨S16x16, .f32⟩
  | 113 => ⟨S16x16, .f32⟩
  | 114 => ⟨S16x16, .i32⟩
  | 115 => ⟨S_, .i32⟩
  | 116 => ⟨S16x16, .i32⟩
  | 117 => ⟨S16x16, .i32⟩
  | 118 => ⟨S16x16, .i32⟩
  | 119 => ⟨S16x16, .i1⟩
  | 120 => ⟨S_, .f32⟩
  | 121 => ⟨S16x16, .f32⟩
  | 122 => ⟨S16x16, .f32⟩
  | 123 => ⟨S16x16, .f32⟩
  | 124 => ⟨S16x16, .f32⟩
  | 125 => ⟨S_, .f32⟩
  | 126 => ⟨S16x16, .f32⟩
  | 127 => ⟨S16x16, .f32⟩
  | _ => ⟨S16x16, .f32⟩

abbrev hbmTy0_1 (i : Nat) : BufTy := match i % 128 with
  | 0 => ⟨S256, .f32⟩
  | 1 => ⟨S_, .i32⟩
  | 2 => ⟨S3200000, .i32⟩
  | 3 => ⟨S3200000, .i32⟩
  | 4 => ⟨S3200000, .i32⟩
  | 5 => ⟨S_, .i32⟩
  | 6 => ⟨S3200000, .i32⟩
  | 7 => ⟨S3200000, .i1⟩
  | 8 => ⟨S_, .i32⟩
  | 9 => ⟨S3200000, .i32⟩
  | 10 => ⟨S3200000, .i32⟩
  | 11 => ⟨S3200000, .i32⟩
  | 12 => ⟨S3200000x1, .i32⟩
  | 13 => ⟨S3200000, .f32⟩
  | 14 => ⟨S25000x128, .f32⟩
  | 15 => ⟨S25000x128, .f32⟩
  | 16 => ⟨S25000x128, .f32⟩
  | 17 => ⟨S25000x128, .f32⟩
  | 18 => ⟨S25000x128, .f32⟩
  | 19 => ⟨S25000x128, .f32⟩
  | 20 => ⟨S3200000, .f32⟩
  | 21 => ⟨S_, .f32⟩
  | 22 => ⟨S100000, .f32⟩
  | 23 => ⟨S3200000x1, .i32⟩
  | 24 => ⟨S100000, .f32⟩
  | 25 => ⟨S100000x1, .f32⟩
  | _ => ⟨S16x16, .f32⟩

abbrev hbmTy (i : Nat) : BufTy := match i / 128 with
  | 0 => hbmTy0_0 i
  | 1 => hbmTy0_1 i
  | _ => ⟨S16x16, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | _, _ => ⟨S16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_v20 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_cst : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call2_cst : Ref sig .tc := ⟨.hbm, 51, rfl⟩
abbrev main_call2_v0 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_4 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_cst : Ref sig .tc := ⟨.hbm, 74, rfl⟩
abbrev main_call3_v5 : Ref sig .tc := ⟨.hbm, 75, rfl⟩
abbrev main_v36 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_cst : Ref sig .tc := ⟨.hbm, 83, rfl⟩
abbrev main_call4_v5 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_call5_cst : Ref sig .tc := ⟨.hbm, 88, rfl⟩
abbrev main_call5_v0 : Ref sig .tc := ⟨.hbm, 89, rfl⟩
abbrev main_v40 : Ref sig .tc := ⟨.hbm, 90, rfl⟩
abbrev main_v41 : Ref sig .tc := ⟨.hbm, 91, rfl⟩
abbrev main_c_6 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_c_7 : Ref sig .tc := ⟨.hbm, 96, rfl⟩
abbrev main_v45 : Ref sig .tc := ⟨.hbm, 97, rfl⟩
abbrev main_v46 : Ref sig .tc := ⟨.hbm, 98, rfl⟩
abbrev main_c_8 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_call6_v0 : Ref sig .tc := ⟨.hbm, 105, rfl⟩
abbrev main_call6_c : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_cst : Ref sig .tc := ⟨.hbm, 111, rfl⟩
abbrev main_call6_v5 : Ref sig .tc := ⟨.hbm, 112, rfl⟩
abbrev main_v52 : Ref sig .tc := ⟨.hbm, 113, rfl⟩
abbrev main_call7_v0 : Ref sig .tc := ⟨.hbm, 114, rfl⟩
abbrev main_call7_c : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_call7_cst : Ref sig .tc := ⟨.hbm, 120, rfl⟩
abbrev main_call7_v5 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_call8_cst : Ref sig .tc := ⟨.hbm, 125, rfl⟩
abbrev main_call8_v0 : Ref sig .tc := ⟨.hbm, 126, rfl⟩
abbrev main_v56 : Ref sig .tc := ⟨.hbm, 127, rfl⟩
abbrev main_v57 : Ref sig .tc := ⟨.hbm, 128, rfl⟩
abbrev main_c_9 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_c_10 : Ref sig .tc := ⟨.hbm, 133, rfl⟩
abbrev main_v61 : Ref sig .tc := ⟨.hbm, 134, rfl⟩
abbrev main_v62 : Ref sig .tc := ⟨.hbm, 135, rfl⟩
abbrev main_c_11 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_cst : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S16x16 : S_.BroadcastsInDim S16x16 (![] : Fin 0 → Fin S16x16.rank)
  transposes_S16x16_S16x16_1_0 : S16x16.Transposes [1, 0] S16x16
  shapeCasts_S16x16_S256 : S16x16.ShapeCasts S256
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  bcast_S_S100000 : S_.BroadcastsInDim S100000 (![] : Fin 0 → Fin S100000.rank)
  bcast_S100000_S100000x1_0 : S100000.BroadcastsInDim S100000x1 (![0] : Fin 1 → Fin S100000x1.rank)
  gather_S100000_S3200000x1_S3200000_n_0_n_n_0_1_1_wf : GatherDims.WF S100000 S3200000x1 S3200000 [] [0] [] [0] [] 1 ![1]
  gather_S256_S3200000x1_S3200000_n_0_n_n_0_1_1_wf : GatherDims.WF S256 S3200000x1 S3200000 [] [0] [] [0] [] 1 ![1]
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S25000x128.size a
  hwx0_1 : ∀ i : grid0.Coords, EltTy.bits .f32 = 32 ∨ (Rect.block (s := S25000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S25000x128.size a
  hwx0_2 : ∀ i : grid0.Coords, EltTy.bits .f32 = 32 ∨ (Rect.block (s := S25000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S25000x128.size a
  hwx0_4 : ∀ i : grid0.Coords, EltTy.bits .f32 = 32 ∨ (Rect.block (s := S25000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S25000x128.size a
  hwx0_5 : ∀ i : grid0.Coords, EltTy.bits .f32 = 32 ∨ (Rect.block (s := S25000x128) S1000x128.size (cc0_transform_5 i) (hinb0_5 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S256_S3200000x1_S3200000_n_0_n_n_0_1_1 : GatherDims S256 S3200000x1 S3200000 where
  offsetDims := []
  collapsedSliceDims := [0]
  operandBatchingDims := []
  startIndicesBatchingDims := []
  startIndexMap := [0]
  indexVectorDim := 1
  sliceSizes := ![1]
  wf := gather_S256_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v68) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v73) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x16 : Shape := ⟨2, ![16, 16]⟩
abbrev S3200000 : Shape := ⟨1, ![3200000]⟩
abbrev S2x3200000 : Shape := ⟨2, ![2, 3200000]⟩
abbrev S100000 : Shape := ⟨1, ![100000]⟩
abbrev S1x3200000 : Shape := ⟨2, ![1, 3200000]⟩
abbrev S_ : Shape := ⟨0, ![]⟩
abbrev S3200000x1 : Shape := ⟨2, ![3200000, 1]⟩
abbrev S256 : Shape := ⟨1, ![256]⟩
abbrev S100000x1 : Shape := ⟨2, ![100000, 1]⟩

abbrev nBuf : Space → Nat
  | .hbm => 159
  | .vmem => 0
  | .smem => 0
  | _ => 0

abbrev hbmTy0_0 (i : Nat) : BufTy := match i % 128 with
  | 0 => ⟨S16x16, .f32⟩
  | 1 => ⟨S16x16, .f32⟩
  | 2 => ⟨S16x16, .f32⟩
  | 3 => ⟨S3200000, .f32⟩
  | 4 => ⟨S3200000, .f32⟩
  | 5 => ⟨S2x3200000, .i32⟩
  | 6 => ⟨S100000, .i32⟩
  | 7 => ⟨S1x3200000, .i32⟩
  | 8 => ⟨S3200000, .i32⟩
  | 9 => ⟨S1x3200000, .i32⟩
  | 10 => ⟨S3200000, .i32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000, .i32⟩
  | 20 => ⟨S1x3200000, .i32⟩
  | 21 => ⟨S3200000, .i32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .i32⟩
  | 31 => ⟨S16x16, .i32⟩
  | 32 => ⟨S_, .i32⟩
  | 33 => ⟨S16x16, .i32⟩
  | 34 => ⟨S16x16, .i32⟩
  | 35 => ⟨S16x16, .i32⟩
  | 36 => ⟨S16x16, .i1⟩
  | 37 => ⟨S_, .f32⟩
  | 38 => ⟨S16x16, .f32⟩
  | 39 => ⟨S16x16, .f32⟩
  | 40 => ⟨S16x16, .i32⟩
  | 41 => ⟨S_, .i32⟩
  | 42 => ⟨S16x16, .i32⟩
  | 43 => ⟨S16x16, .i32⟩
  | 44 => ⟨S16x16, .i32⟩
  | 45 => ⟨S16x16, .i1⟩
  | 46 => ⟨S_, .f32⟩
  | 47 => ⟨S16x16, .f32⟩
  | 48 => ⟨S16x16, .f32⟩
  | 49 => ⟨S16x16, .f32⟩
  | 50 => ⟨S16x16, .f32⟩
  | 51 => ⟨S256, .f32⟩
  | 52 => ⟨S_, .i32⟩
  | 53 => ⟨S3200000, .i32⟩
  | 54 => ⟨S3200000, .i32⟩
  | 55 => ⟨S3200000, .i32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000, .f32⟩
  | 65 => ⟨S_, .f32⟩
  | 66 => ⟨S3200000, .f32⟩
  | 67 => ⟨S3200000, .f32⟩
  | 68 => ⟨S16x16, .i32⟩
  | 69 => ⟨S_, .i32⟩
  | 70 => ⟨S16x16, .i32⟩
  | 71 => ⟨S16x16, .i32⟩
  | 72 => ⟨S16x16, .i32⟩
  | 73 => ⟨S16x16, .i1⟩
  | 74 => ⟨S_, .f32⟩
  | 75 => ⟨S16x16, .f32⟩
  | 76 => ⟨S16x16, .f32⟩
  | 77 => ⟨S16x16, .i32⟩
  | 78 => ⟨S_, .i32⟩
  | 79 => ⟨S16x16, .i32⟩
  | 80 => ⟨S16x16, .i32⟩
  | 81 => ⟨S16x16, .i32⟩
  | 82 => ⟨S16x16, .i1⟩
  | 83 => ⟨S_, .f32⟩
  | 84 => ⟨S16x16, .f32⟩
  | 85 => ⟨S16x16, .f32⟩
  | 86 => ⟨S16x16, .f32⟩
  | 87 => ⟨S16x16, .f32⟩
  | 88 => ⟨S256, .f32⟩
  | 89 => ⟨S_, .i32⟩
  | 90 => ⟨S3200000, .i32⟩
  | 91 => ⟨S3200000, .i32⟩
  | 92 => ⟨S3200000, .i32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000, .f32⟩
  | 102 => ⟨S_, .f32⟩
  | 103 => ⟨S3200000, .f32⟩
  | 104 => ⟨S3200000, .f32⟩
  | 105 => ⟨S16x16, .i32⟩
  | 106 => ⟨S_, .i32⟩
  | 107 => ⟨S16x16, .i32⟩
  | 108 => ⟨S16x16, .i32⟩
  | 109 => ⟨S16x16, .i32⟩
  | 110 => ⟨S16x16, .i1⟩
  | 111 => ⟨S_, .f32⟩
  | 112 => ⟨S16x16, .f32⟩
  | 113 => ⟨S16x16, .f32⟩
  | 114 => ⟨S16x16, .i32⟩
  | 115 => ⟨S_, .i32⟩
  | 116 => ⟨S16x16, .i32⟩
  | 117 => ⟨S16x16, .i32⟩
  | 118 => ⟨S16x16, .i32⟩
  | 119 => ⟨S16x16, .i1⟩
  | 120 => ⟨S_, .f32⟩
  | 121 => ⟨S16x16, .f32⟩
  | 122 => ⟨S16x16, .f32⟩
  | 123 => ⟨S16x16, .f32⟩
  | 124 => ⟨S16x16, .f32⟩
  | 125 => ⟨S256, .f32⟩
  | 126 => ⟨S_, .i32⟩
  | 127 => ⟨S3200000, .i32⟩
  | _ => ⟨S16x16, .f32⟩

abbrev hbmTy0_1 (i : Nat) : BufTy := match i % 128 with
  | 0 => ⟨S3200000, .i32⟩
  | 1 => ⟨S3200000, .i32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000, .f32⟩
  | 11 => ⟨S_, .f32⟩
  | 12 => ⟨S3200000, .f32⟩
  | 13 => ⟨S3200000, .f32⟩
  | 14 => ⟨S3200000, .f32⟩
  | 15 => ⟨S3200000, .f32⟩
  | 16 => ⟨S_, .f32⟩
  | 17 => ⟨S3200000, .f32⟩
  | 18 => ⟨S3200000, .f32⟩
  | 19 => ⟨S_, .f32⟩
  | 20 => ⟨S3200000, .f32⟩
  | 21 => ⟨S3200000, .f32⟩
  | 22 => ⟨S3200000, .f32⟩
  | 23 => ⟨S3200000, .f32⟩
  | 24 => ⟨S3200000, .f32⟩
  | 25 => ⟨S3200000, .f32⟩
  | 26 => ⟨S_, .f32⟩
  | 27 => ⟨S100000, .f32⟩
  | 28 => ⟨S3200000x1, .i32⟩
  | 29 => ⟨S100000, .f32⟩
  | 30 => ⟨S100000x1, .f32⟩
  | _ => ⟨S16x16, .f32⟩

abbrev hbmTy (i : Nat) : BufTy := match i / 128 with
  | 0 => hbmTy0_0 i
  | 1 => hbmTy0_1 i
  | _ => ⟨S16x16, .f32⟩

abbrev bufTy : (tb : Table) → Fin (tcTables nBuf tb) → BufTy
  | .hbm, ⟨i, _⟩ => hbmTy i
  | _, _ => ⟨S16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_cst : Ref sig .tc := ⟨.hbm, 37, rfl⟩
abbrev main_call0_v5 : Ref sig .tc := ⟨.hbm, 38, rfl⟩
abbrev main_v20 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_cst : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call2_cst : Ref sig .tc := ⟨.hbm, 65, rfl⟩
abbrev main_call2_v0 : Ref sig .tc := ⟨.hbm, 66, rfl⟩
abbrev main_v35 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_cst : Ref sig .tc := ⟨.hbm, 74, rfl⟩
abbrev main_call3_v5 : Ref sig .tc := ⟨.hbm, 75, rfl⟩
abbrev main_v36 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_cst : Ref sig .tc := ⟨.hbm, 83, rfl⟩
abbrev main_call4_v5 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_6 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_c_7 : Ref sig .tc := ⟨.hbm, 93, rfl⟩
abbrev main_v44 : Ref sig .tc := ⟨.hbm, 94, rfl⟩
abbrev main_v45 : Ref sig .tc := ⟨.hbm, 95, rfl⟩
abbrev main_c_8 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_call5_cst : Ref sig .tc := ⟨.hbm, 102, rfl⟩
abbrev main_call5_v0 : Ref sig .tc := ⟨.hbm, 103, rfl⟩
abbrev main_v51 : Ref sig .tc := ⟨.hbm, 104, rfl⟩
abbrev main_call6_v0 : Ref sig .tc := ⟨.hbm, 105, rfl⟩
abbrev main_call6_c : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_cst : Ref sig .tc := ⟨.hbm, 111, rfl⟩
abbrev main_call6_v5 : Ref sig .tc := ⟨.hbm, 112, rfl⟩
abbrev main_v52 : Ref sig .tc := ⟨.hbm, 113, rfl⟩
abbrev main_call7_v0 : Ref sig .tc := ⟨.hbm, 114, rfl⟩
abbrev main_call7_c : Ref sig .tc := ⟨.hbm, 115, rfl⟩
abbrev main_call7_v1 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_call7_cst : Ref sig .tc := ⟨.hbm, 120, rfl⟩
abbrev main_call7_v5 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_c_9 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_c_10 : Ref sig .tc := ⟨.hbm, 130, rfl⟩
abbrev main_v60 : Ref sig .tc := ⟨.hbm, 131, rfl⟩
abbrev main_v61 : Ref sig .tc := ⟨.hbm, 132, rfl⟩
abbrev main_c_11 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call8_cst : Ref sig .tc := ⟨.hbm, 139, rfl⟩
abbrev main_call8_v0 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst : Ref sig .tc := ⟨.hbm, 144, rfl⟩
abbrev main_v70 : Ref sig .tc := ⟨.hbm, 145, rfl⟩
abbrev main_v71 : Ref sig .tc := ⟨.hbm, 146, rfl⟩
abbrev main_cst_12 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_13 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S16x16 : S_.BroadcastsInDim S16x16 (![] : Fin 0 → Fin S16x16.rank)
  transposes_S16x16_S16x16_1_0 : S16x16.Transposes [1, 0] S16x16
  shapeCasts_S16x16_S256 : S16x16.ShapeCasts S256
  bcast_S_S100000 : S_.BroadcastsInDim S100000 (![] : Fin 0 → Fin S100000.rank)
  bcast_S100000_S100000x1_0 : S100000.BroadcastsInDim S100000x1 (![0] : Fin 1 → Fin S100000x1.rank)
  gather_S100000_S3200000x1_S3200000_n_0_n_n_0_1_1_wf : GatherDims.WF S100000 S3200000x1 S3200000 [] [0] [] [0] [] 1 ![1]
  gather_S256_S3200000x1_S3200000_n_0_n_n_0_1_1_wf : GatherDims.WF S256 S3200000x1 S3200000 [] [0] [] [0] [] 1 ![1]
  scatter_S100000_S3200000x1_S3200000_n_0_0_1_wf : ScatterDims.WF S100000 S3200000x1 S3200000 [] [0] [0] 1

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S256_S3200000x1_S3200000_n_0_n_n_0_1_1 : GatherDims S256 S3200000x1 S3200000 where
  offsetDims := []
  collapsedSliceDims := [0]
  operandBatchingDims := []
  startIndicesBatchingDims := []
  startIndexMap := [0]
  indexVectorDim := 1
  sliceSizes := ![1]
  wf := gather_S256_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.LJScalar.lean ====
/-
  One edge of the Lennard-Jones sum, on the extended reals.

  With `r = s / (l − d)` the kernel forms the sixth power of `r` by products, `((r·r)·r)·((r·r)·r)`, where the
  reference applies the power function with exponent `6`. On a real `r` both are `r⁶` (the real power function at a
  natural exponent is the monomial, whatever the sign of the base); at `r = +∞` both are `+∞`. At `r = −∞` they differ:
  the product of an even number of `−∞` is `+∞`, while the power function keeps a `−∞` base. The quotient is `−∞` only
  as `0 / 0`: for a real `s ≥ 0` and reals `l`, `d`, the quotient `s / (l − d)` is a real when `l ≠ d`, is `+∞` when
  `l = d` and `s > 0`, and is `−∞` exactly when `l = d` and `s = 0`.
-/
import Idealize.ShloMosaic.PureOps.Ideal
import Idealize.ShloMosaic.PureOps.Ideal.Laws
import Mathlib.Analysis.SpecialFunctions.Pow.Real

noncomputable section

namespace Cert.LJ

open Idealize.ShloMosaic

/-- The sixth power by three products: `r³ · r³` with `r³ = (r·r)·r`. -/
def sixth (r : EReal) : EReal := ((r * r) * r) * ((r * r) * r)

/-- The f32 word `0x40C00000` denotes the real number six. -/
theorem six_bits : Ideal.ofBits .f32 0x40C00000#32 = ((6 : ℝ) : EReal) := by
  simp [Ideal.ofBits, Ideal.ieee]
  rw [← EReal.coe_mul]
  congr 1
  norm_num

/-- Off `−∞` the power function at exponent six is the sixth power by products. -/
theorem pow_six_eq_sixth (r : EReal) (h : r ≠ ⊥) : Ideal.pow r ((6 : ℝ) : EReal) = sixth r := by
  induction r using EReal.rec with
  | bot => exact absurd rfl h
  | top =>
    have h6 : (0 : EReal) < ((6 : ℝ) : EReal) := by exact_mod_cast (by norm_num : (0 : ℝ) < 6)
    simp only [Ideal.pow_top, if_pos h6, sixth, EReal.top_mul_top]
  | coe x =>
    rw [Ideal.pow_coe_coe]
    unfold sixth
    rw [← EReal.coe_mul, ← EReal.coe_mul, ← EReal.coe_mul]
    congr 1
    show x ^ (6 : ℝ) = _
    rw [show (6 : ℝ) = ((6 : ℕ) : ℝ) by norm_num, Real.rpow_natCast]
    ring

/-- A real `s ≥ 0` over a difference of reals is not `−∞` unless it is `0 / 0`. -/
theorem div_ne_bot (s l d : ℝ) (hs : 0 ≤ s) (h : s ≠ 0 ∨ l ≠ d) :
    Ideal.div (s : EReal) ((l : EReal) - (d : EReal)) ≠ ⊥ := by
  rw [← EReal.coe_sub]
  by_cases hz : l - d = 0
  · have hsd : s ≠ 0 := h.resolve_right (fun hne => hne (by linarith))
    have hpos : (0 : EReal) < (s : EReal) := by exact_mod_cast lt_of_le_of_ne hs (Ne.symm hsd)
    unfold Ideal.div
    rw [hz, EReal.coe_zero, if_pos rfl, if_pos hpos]
    exact top_ne_bot
  · rw [Ideal.div_coe hz, ← EReal.coe_mul]
    exact EReal.coe_ne_bot _

/-- One edge's energy as the kernel forms it: `(two · e) · (r⁶ · r⁶ − r⁶) · c` with `r = s / (l − d)` and `r⁶` by products. -/
def kerEdge (two s d e l c : EReal) : EReal :=
  ((two * e) * (sixth (Ideal.div s (l - d)) * sixth (Ideal.div s (l - d)) - sixth (Ideal.div s (l - d)))) * c

/-- The same energy with the power function in place of the products. -/
def refEdge (two six s d e l c : EReal) : EReal :=
  ((two * e) * (Ideal.pow (Ideal.div s (l - d)) six * Ideal.pow (Ideal.div s (l - d)) six - Ideal.pow (Ideal.div s (l - d)) six)) * c

/-- `max` of a real and zero is a real. -/
theorem max_coe_zero (x : ℝ) : max (x : EReal) 0 = ((max x 0 : ℝ) : EReal) := by
  rcases le_total x 0 with h | h
  · rw [max_eq_right h, max_eq_right (by exact_mod_cast h : (x : EReal) ≤ 0), EReal.coe_zero]
  · rw [max_eq_left h, max_eq_left (by exact_mod_cast h : (0 : EReal) ≤ (x : EReal))]

/-- With `s = max a 0`, `d = max b 0` for reals `a`, `b` and a real length `l`, the two forms of the energy agree unless
    `s = 0` and `l = d` at once. -/
theorem edge_energy (a b l : ℝ) (two e c : EReal)
    (h : max (a : EReal) 0 ≠ 0 ∨ (l : EReal) ≠ max (b : EReal) 0) :
    kerEdge two (max (a : EReal) 0) (max (b : EReal) 0) e (l : EReal) c
      = refEdge two (Ideal.ofBits .f32 0x40C00000#32) (max (a : EReal) 0) (max (b : EReal) 0) e (l : EReal) c := by
  have hr : Ideal.div (max (a : EReal) 0) ((l : EReal) - max (b : EReal) 0) ≠ ⊥ := by
    rw [max_coe_zero a, max_coe_zero b]
    refine div_ne_bot (max a 0) l (max b 0) (le_max_right _ _) ?_
    rw [max_coe_zero a, max_coe_zero b] at h
    rcases h with h | h
    · exact Or.inl (fun h0 => h (by rw [h0, EReal.coe_zero]))
    · exact Or.inr (fun h0 => h (by rw [h0]))
  unfold kerEdge refEdge
  rw [six_bits, pow_six_eq_sixth _ hr]

end Cert.LJ

end
-- ==== Proof.KernelBlocks.lean ====
/-
  What the kernel leaves in its output array.

  The region runs over 25 grid points; at point `t` every window holds rows `1000·t … 1000·t + 999` of its 25000×128
  array, all 128 lanes. The body loads the five input blocks whole, forms one edge energy per entry, and stores the block
  whole. So the block written back at point `t` is block `t` of ONE function of the five input arrays, entry by entry,
  and the 25 blocks tile the output array: after the run the output array is that function everywhere.
-/
import proofs.«166587_j50697793962073_1_alg».proof.Proof.Gen.KernelIdeal.Frame
import proofs.«166587_j50697793962073_1_alg».proof.Proof.LJScalar
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The f32 word of the factor two, as the body splats it. -/
abbrev twoWord : EReal := Ideal.ofBits .f32 0x40000000#32

/-- The output array as one function of the five input arrays: the edge energy, entry by entry. -/
abbrev energies (a0 a1 a2 a3 a4 : S25000x128.Idx → Elt Ideal .f32) : S25000x128.Idx → Elt Ideal .f32 :=
  fun i => Cert.LJ.kerEdge twoWord (a0 i) (a1 i) (a2 i) (a3 i) (a4 i)

/-- The body's stored value is the edge energy of its five loaded blocks, entry by entry (the shape casts of a block to
    its own shape are the identity). -/
theorem payload_eq (x0 x1 x2 x3 x4 : Vec Ideal S1000x128 .f32) :
    k0_pay1 (F := Ideal) x0 x1 x2 x3 x4
      = fun i => Cert.LJ.kerEdge twoWord (x0 i) (x1 i) (x2 i) (x3 i) (x4 i) := by
  unfold k0_pay1
  simp only [shapeCast_self]
  rfl

/-- The printed index maps, decided over the grid: every input window sits at the output window's block, and the block
    row runs over 0 … 24. -/
theorem index_facts : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = win0_5.index t (0 : Fin 2) ∧ win0_3.index t (1 : Fin 2) = win0_5.index t (1 : Fin 2)
    ∧ win0_4.index t (0 : Fin 2) = win0_5.index t (0 : Fin 2) ∧ win0_4.index t (1 : Fin 2) = win0_5.index t (1 : Fin 2) :=
  (by decide +kernel : ∀ t : Fin grid0.N, _)

/-- Every block row is some point's. -/
theorem index_onto : ∀ q0 : Fin 25, ∃ t : Fin cfg0.N, win0_5.index t = ![q0.val, 0] :=
  (by decide +kernel : ∀ q0 : Fin 25, ∃ t : Fin grid0.N, win0_5.index t = ![q0.val, 0])

-- From here on only this is used of the edge energy: it is one function of five numbers.
attribute [local irreducible] Cert.LJ.kerEdge

/-- The blocks step over ARBITRARY arrays: reading five arrays through the five input windows' blocks at point `t`, forming
    the edge energy entry by entry and keeping the part the write-back moves, is reading the arrays' energies through the
    output window's block (all six windows sit at the same block). -/
theorem blocks_step (t : Fin cfg0.N) (a0 a1 a2 a3 a4 : S25000x128.Idx → Elt Ideal .f32) :
    (cfg0.win 5).cut (grid0.coords t) (fun i => Cert.LJ.kerEdge twoWord
        (((cfg0.win 0).blk t).view.read (Elt Ideal) a0 i) (((cfg0.win 1).blk t).view.read (Elt Ideal) a1 i)
        (((cfg0.win 2).blk t).view.read (Elt Ideal) a2 i) (((cfg0.win 3).blk t).view.read (Elt Ideal) a3 i)
        (((cfg0.win 4).blk t).view.read (Elt Ideal) a4 i))
      = ((cfg0.win 5).blk t).view.read (Elt Ideal) (energies a0 a1 a2 a3 a4) := by
  obtain ⟨e00, e01, e10, e11, e20, e21, e30, e31, e40, e41⟩ := index_facts t
  funext j
  show Cert.LJ.kerEdge twoWord (a0 (((cfg0.win 0).blk t).view.emb j)) (a1 (((cfg0.win 1).blk t).view.emb j))
      (a2 (((cfg0.win 2).blk t).view.emb j)) (a3 (((cfg0.win 3).blk t).view.emb j)) (a4 (((cfg0.win 4).blk t).view.emb j))
    = Cert.LJ.kerEdge twoWord (a0 (((cfg0.win 5).blk t).view.emb j)) (a1 (((cfg0.win 5).blk t).view.emb j))
      (a2 (((cfg0.win 5).blk t).view.emb j)) (a3 (((cfg0.win 5).blk t).view.emb j)) (a4 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 1000 + 1 * (j 0).val = win0_5.index t (0 : Fin 2) * 1000 + 1 * (j 0).val; omega
    | ⟨1, _⟩ => show win0_0.index t (1 : Fin 2) * 128 + 1 * (j 1).val = win0_5.index t (1 : Fin 2) * 128 + 1 * (j 1).val; omega
  have h1 : ((cfg0.win 1).blk t).view.emb j = ((cfg0.win 5).blk t).view.emb j := by
    funext a; apply Fin.ext
    match a with
    | ⟨0, _⟩ => show win0_1.index t (0 : Fin 2) * 1000 + 1 * (j 0).val = win0_5.index t (0 : Fin 2) * 1000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb j = ((cfg0.win 5).blk t).view.emb j := by
    funext a; apply Fin.ext
    match a with
    | ⟨0, _⟩ => show win0_2.index t (0 : Fin 2) * 1000 + 1 * (j 0).val = win0_5.index t (0 : Fin 2) * 1000 + 1 * (j 0).val; omega
    | ⟨1, _⟩ => show win0_2.index t (1 : Fin 2) * 128 + 1 * (j 1).val = win0_5.index t (1 : Fin 2) * 128 + 1 * (j 1).val; omega
  have h3 : ((cfg0.win 3).blk t).view.emb j = ((cfg0.win 5).blk t).view.emb j := by
    funext a; apply Fin.ext
    match a with
    | ⟨0, _⟩ => show win0_3.index t (0 : Fin 2) * 1000 + 1 * (j 0).val = win0_5.index t (0 : Fin 2) * 1000 + 1 * (j 0).val; omega
    | ⟨1, _⟩ => show win0_3.index t (1 : Fin 2) * 128 + 1 * (j 1).val = win0_5.index t (1 : Fin 2) * 128 + 1 * (j 1).val; omega
  have h4 : ((cfg0.win 4).blk t).view.emb j = ((cfg0.win 5).blk t).view.emb j := by
    funext a; apply Fin.ext
    match a with
    | ⟨0, _⟩ => show win0_4.index t (0 : Fin 2) * 1000 + 1 * (j 0).val = win0_5.index t (0 : Fin 2) * 1000 + 1 * (j 0).val; omega
    | ⟨1, _⟩ => show win0_4.index t (1 : Fin 2) * 128 + 1 * (j 1).val = win0_5.index t (1 : Fin 2) * 128 + 1 * (j 1).val; omega
  rw [h0, h1, h2, h3, h4]

/-- What point `t` writes back is block `t` of the energies of the arrays as the region finds them. -/
theorem flushed_eq (c : Dev nD) (t : Fin cfg0.N) :
    (dats m 0 c).flushed 5 t = ((cfg0.win 5).blk t).view.read (Elt Ideal)
      (energies (V m c main_v68) (V m c main_v69) (V m c main_v70) (V m c main_v71) (V m c main_v72)) := by
  show (cfg0.win 5).cut (grid0.coords t) ((dats m 0 c).after 5 t) = _
  rw [after0_5]
  unfold out0_5
  rw [View.canon_unit_zero zero_offsets]
  simp only [View.ld_unit_zero (S := S1000x128) zero_offsets]
  rw [payload_eq]
  unfold iblk
  exact blocks_step t (V m c main_v68) (V m c main_v69) (V m c main_v70) (V m c main_v71) (V m c main_v72)

/-- An index of the array is in point `t`'s block iff each coordinate is in the block's range on its axis. -/
theorem mem_block (t : Fin cfg0.N) (i : S25000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v73).slice (win0_5.rect t)).set ↔ _
  rw [View.set_slice_whole, Rect.mem_set_unit]
  exact Iff.rfl

/-- The blocks tile the array: the point whose block holds row `r` is the one with block row `r / 1000`. -/
theorem covered (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  obtain ⟨t, ht⟩ := index_onto ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- The output array after the run: the energies of the five input arrays as the region finds them. -/
theorem final (c : Dev nD) : (dats m 0 c).arrAt 5 cfg0.N
    = energies (V m c main_v68) (V m c main_v69) (V m c main_v70) (V m c main_v71) (V m c main_v72) :=
  (dats m 0 c).arrAt_eq_of_cover 5 _ (fun t _ => flushed_eq m c t) covered

end Cert.KernelIdeal.Blocks

end
-- ==== Proof.LJHost.lean ====
/-
  The host-side pieces both programs (and the precondition) compute, over the literal shapes.

  An edge `e` has two endpoints, rows 0 and 1 of the 2×E index array; an endpoint's atom type is the entry of the type
  array at the endpoint's number (a negative number first wrapped by the array's length, the read clamped into range).
  The pair of types `(t₁, t₂)` selects entry `16·t₁ + t₂` of a flattened 16×16 table. The table is the parameter matrix
  symmetrized from its upper triangle: the matrix masked to `row ≤ col` plus the transpose of the matrix masked to
  `row < col`. The pair parameter is the table's entry clipped below at zero — the reference clips the entry it took, the
  kernel clips the table and then takes the entry.
-/
import Idealize.ShloMosaic.PureOps
import Idealize.ShloMosaic.Lib.StableHlo

noncomputable section

namespace Cert.LJ

open Idealize.ShloMosaic

abbrev S0 : Shape := ⟨0, ![]⟩
abbrev T : Shape := ⟨2, ![16, 16]⟩
abbrev TF : Shape := ⟨1, ![256]⟩
abbrev E : Shape := ⟨1, ![3200000]⟩
abbrev EC : Shape := ⟨2, ![3200000, 1]⟩
abbrev E1 : Shape := ⟨2, ![1, 3200000]⟩
abbrev E2 : Shape := ⟨2, ![2, 3200000]⟩
abbrev A : Shape := ⟨1, ![100000]⟩
abbrev B : Shape := ⟨2, ![25000, 128]⟩
abbrev AC : Shape := ⟨2, ![100000, 1]⟩

variable {F : FTy → Type} [FloatOps F]

/-- Row `off 0` of the 2×E endpoint array, as a flat array of E numbers. -/
def endpointIds (off : Fin 2 → Nat) (hs : E2.Slices off E1) (hf : E1.ShapeCasts E) (x5 : IVec E2 32) : IVec E 32 :=
  shapeCast E (extractStridedSlice E1 off x5 hs) hf

/-- "If negative add `n`", entry by entry. -/
def wrapNeg (hb : S0.BroadcastsInDim E (![] : Fin 0 → Fin E.rank)) (n : BitVec 32) (v : IVec E 32) : IVec E 32 :=
  select (cmpi .slt v (broadcastInDim E ![] hb (constantI S0 32 0#32)))
    (addi v (broadcastInDim E ![] hb (constantI S0 32 n))) v

/-- A flat array of E numbers as an E×1 column. -/
def asColumn (hc : E.BroadcastsInDim EC (![0] : Fin 1 → Fin EC.rank)) (v : IVec E 32) : IVec EC 32 :=
  broadcastInDim EC ![0] hc v

/-- The atom types of the endpoints `v`. -/
def atomTypes (gA : GatherDims A EC E) (hb : S0.BroadcastsInDim E (![] : Fin 0 → Fin E.rank))
    (hc : E.BroadcastsInDim EC (![0] : Fin 1 → Fin EC.rank)) (x6 : IVec A 32) (v : IVec E 32) : IVec E 32 :=
  Host.gather gA x6 (asColumn hc (wrapNeg hb 100000#32 v))

/-- The flat table position `16·t₁ + t₂` of every edge, wrapped, as a column. -/
def pairColumn (hb : S0.BroadcastsInDim E (![] : Fin 0 → Fin E.rank))
    (hc : E.BroadcastsInDim EC (![0] : Fin 1 → Fin EC.rank)) (t1 t2 : IVec E 32) : IVec EC 32 :=
  asColumn hc (wrapNeg hb 256#32 (addi (muli t1 (broadcastInDim E ![] hb (constantI S0 32 16#32))) t2))

/-- The zero matrix. -/
def zeroT (hbT : S0.BroadcastsInDim T (![] : Fin 0 → Fin T.rank)) : FVec F T .f32 :=
  broadcastInDim T ![] hbT (constant S0 .f32 0x00000000#32)

/-- The mask `row + k ≥ col` (as 32-bit words; `k = −1` is the word of all ones). -/
def belowMask (hbT : S0.BroadcastsInDim T (![] : Fin 0 → Fin T.rank)) (k : BitVec 32) : IVec T 1 :=
  cmpi .sge (addi (iotaInDim T 32 0) (broadcastInDim T ![] hbT (constantI S0 32 k))) (iotaInDim T 32 1)

/-- The parameter matrix symmetrized from its upper triangle. -/
def symTable (hbT : S0.BroadcastsInDim T (![] : Fin 0 → Fin T.rank)) (htr : T.Transposes [1, 0] T) (p : FVec F T .f32) :
    FVec F T .f32 :=
  addf (select (belowMask hbT 4294967295#32) (zeroT hbT) p)
    (transpose T [1, 0] (select (belowMask hbT 0#32) (zeroT hbT) p) htr)

/-- The reference's pair parameter: the table's entry, then clipped at zero. -/
def refPair (gT : GatherDims TF EC E) (hbT : S0.BroadcastsInDim T (![] : Fin 0 → Fin T.rank)) (htr : T.Transposes [1, 0] T)
    (hfT : T.ShapeCasts TF) (hb : S0.BroadcastsInDim E (![] : Fin 0 → Fin E.rank)) (p : FVec F T .f32) (col : IVec EC 32) :
    FVec F E .f32 :=
  maximumf (Host.gather gT (shapeCast TF (symTable hbT htr p) hfT) col)
    (broadcastInDim E ![] hb (constant S0 .f32 0x00000000#32))

/-- The kernel's pair parameter: the table clipped at zero, then its entry. -/
def kerPair (gT : GatherDims TF EC E) (hbT : S0.BroadcastsInDim T (![] : Fin 0 → Fin T.rank)) (htr : T.Transposes [1, 0] T)
    (hfT : T.ShapeCasts TF) (p : FVec F T .f32) (col : IVec EC 32) : FVec F E .f32 :=
  Host.gather gT (shapeCast TF (maximumf (symTable hbT htr p) (zeroT hbT)) hfT) col

/-- The reference's per-edge energies: `2·eps · (x·x − x) · cutoff` with `x = (sig / (len − dlt)) ^ 6` by the power
    function. -/
def refEnergies (hb : S0.BroadcastsInDim E (![] : Fin 0 → Fin E.rank)) (s d e len cut : FVec F E .f32) : FVec F E .f32 :=
  mulf (mulf (mulf (broadcastInDim E ![] hb (constant S0 .f32 0x40000000#32)) e)
    (subf (mulf
        (Host.powf (Host.divf s (subf len d)) (broadcastInDim E ![] hb (constant S0 .f32 0x40C00000#32)))
        (Host.powf (Host.divf s (subf len d)) (broadcastInDim E ![] hb (constant S0 .f32 0x40C00000#32))))
      (Host.powf (Host.divf s (subf len d)) (broadcastInDim E ![] hb (constant S0 .f32 0x40C00000#32))))) cut

/-- The per-atom sums: every edge's energy added onto its centre atom, from zeros; as a column. -/
def atomSums (sd : ScatterDims A EC E) (hbA : S0.BroadcastsInDim A (![] : Fin 0 → Fin A.rank))
    (hcA : A.BroadcastsInDim AC (![0] : Fin 1 → Fin AC.rank)) (hc : E.BroadcastsInDim EC (![0] : Fin 1 → Fin EC.rank))
    (center : IVec E 32) (lj : FVec F E .f32) : FVec F AC .f32 :=
  broadcastInDim AC ![0] hcA
    (Host.scatterAdd sd (broadcastInDim A ![] hbA (constant S0 .f32 0x00000000#32)) (asColumn hc center) lj)

end Cert.LJ

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.KernelHostRead.lean ====
/-
  The kernel program's host operations before the region, read back.

  They run in a row from the launch contents: first the two endpoint rows and their atom types; then, for each of the
  three parameter matrices, the symmetrized table clipped at zero, flattened, and taken at every edge's pair of types;
  last the five per-edge arrays re-laid as 25000×128, which are the region's input windows. Each stretch is read over
  contents that are no further specified: what it writes as a function of what it reads, and what it leaves alone.
-/
import proofs.«166587_j50697793962073_1_alg».proof.Proof.Gen.KernelIdeal.Frame
import proofs.«166587_j50697793962073_1_alg».proof.Proof.LJHost
import proofs.«166587_j50697793962073_1_alg».proof.Proof.LibAfterAppend
import proofs.«166587_j50697793962073_1_alg».proof.Proof.LibTypedRefs
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

/-! ## The endpoint rows and their atom types -/

/-- The centre endpoints of the edges. -/
theorem ids_center (W : Valuation τ sig (Elt F)) :
    (after hostOps0 (W) (Proc.devRef .tc main_v1) : IVec S3200000 32) = Cert.LJ.endpointIds ![0, 0] Facts₀.slices_S2x3200000_S1x3200000_0_0 Facts₀.shapeCasts_S1x3200000_S3200000 (W (Proc.devRef .tc main_arg5)) := by
  after_results <;> rfl

/-- The atom type of every edge's first endpoint. -/
theorem ids_type1 (W : Valuation τ sig (Elt F)) :
    (after hostOps0 (W) (Proc.devRef .tc main_v10) : IVec S3200000 32) = Cert.LJ.atomTypes gather_S100000_S3200000x1_S3200000_n_0_n_n_0_1_1 Facts₀.bcast_S_S3200000 Facts₀.bcast_S3200000_S3200000x1_0 (W (Proc.devRef .tc main_arg6)) (Cert.LJ.endpointIds ![0, 0] Facts₀.slices_S2x3200000_S1x3200000_0_0 Facts₀.shapeCasts_S1x3200000_S3200000 (W (Proc.devRef .tc main_arg5))) := by
  after_results <;> rfl

/-- The atom type of every edge's second endpoint. -/
theorem ids_type2 (W : Valuation τ sig (Elt F)) :
    (after hostOps0 (W) (Proc.devRef .tc main_v19) : IVec S3200000 32) = Cert.LJ.atomTypes gather_S100000_S3200000x1_S3200000_n_0_n_n_0_1_1 Facts₀.bcast_S_S3200000 Facts₀.bcast_S3200000_S3200000x1_0 (W (Proc.devRef .tc main_arg6)) (Cert.LJ.endpointIds ![1, 0] Facts₀.slices_S2x3200000_S1x3200000_1_0 Facts₀.shapeCasts_S1x3200000_S3200000 (W (Proc.devRef .tc main_arg5))) := by
  after_results <;> rfl

theorem ids_keeps_main_arg0 (W : Valuation τ sig (Elt F)) :
    after hostOps0 (W) (Proc.devRef .tc main_arg0) = W (Proc.devRef .tc main_arg0) := by
  after_results <;> rfl

theorem ids_keeps_main_arg1 (W : Valuation τ sig (Elt F)) :
    after hostOps0 (W) (Proc.devRef .tc main_arg1) = W (Proc.devRef .tc main_arg1) := by
  after_results <;> rfl

theorem ids_keeps_main_arg2 (W : Valuation τ sig (Elt F)) :
    after hostOps0 (W) (Proc.devRef .tc main_arg2) = W (Proc.devRef .tc main_arg2) := by
  after_results <;> rfl

theorem ids_keeps_main_arg3 (W : Valuation τ sig (Elt F)) :
    after hostOps0 (W) (Proc.devRef .tc main_arg3) = W (Proc.devRef .tc main_arg3) := by
  after_results <;> rfl

theorem ids_keeps_main_arg4 (W : Valuation τ sig (Elt F)) :
    after hostOps0 (W) (Proc.devRef .tc main_arg4) = W (Proc.devRef .tc main_arg4) := by
  after_results <;> rfl

/-! ## The sig chain -/

/-! ## Writing or reading a helper's value through its buffer's typed reference is the identity -/

theorem rd_main_arg0 (p q s) (w : (main_arg0 : Ref sig .tc).ty.Contents (Elt F)) :
    ((TRef.of (sig := sig) (T := (⟨S16x16, .f32⟩ : BufTy)) main_arg0 p q s).ofBuf w : (⟨S16x16, .f32⟩ : BufTy).Contents (Elt F)) = (w : (⟨S16x16, .f32⟩ : BufTy).Contents (Elt F)) := rfl
theorem wr_main_v20 (p q s) (v : (⟨S16x16, .f32⟩ : BufTy).Contents (Elt F)) :
    ((TRef.of (sig := sig) (T := (⟨S16x16, .f32⟩ : BufTy)) main_v20 p q s).toBuf v : (⟨S16x16, .f32⟩ : BufTy).Contents (Elt F)) = v := rfl
theorem wr_main_v21 (p q s) (v : (⟨S16x16, .f32⟩ : BufTy).Contents (Elt F)) :
    ((TRef.of (sig := sig) (T := (⟨S16x16, .f32⟩ : BufTy)) main_v21 p q s).toBuf v : (⟨S16x16, .f32⟩ : BufTy).Contents (Elt F)) = v := rfl
theorem rd_main_v23 (p q s) (w : (main_v23 : Ref sig .tc).ty.Contents (Elt F)) :
    ((TRef.of (sig := sig) (T := (⟨S16x16, .f32⟩ : BufTy)) main_v23 p q s).ofBuf w : (⟨S16x16, .f32⟩ : BufTy).Contents (Elt F)) = (w : (⟨S16x16, .f32⟩ : BufTy).Contents (Elt F)) := rfl
theorem wr_main_v24 (p q s) (v : (⟨S16x16, .f32⟩ : BufTy).Contents (Elt F)) :
    ((TRef.of (sig := sig) (T := (⟨S16x16, .f32⟩ : BufTy)) main_v24 p q s).toBuf v : (⟨S16x16, .f32⟩ : BufTy).Contents (Elt F)) = v := rfl
theorem rd_main_arg1 (p q s) (w : (main_arg1 : Ref sig .tc).ty.Contents (Elt F)) :
    ((TRef.of (sig := sig) (T := (⟨S16x16, .f32⟩ : BufTy)) main_arg1 p q s).ofBuf w : (⟨S16x16, .f32⟩ : BufTy).Contents (Elt F)) = (w : (⟨S16x16, .f32⟩ : BufTy).Contents (Elt F)) := rfl
theorem wr_main_v36 (p q s) (v : (⟨S16x16, .f32⟩ : BufTy).Contents (Elt F)) :
    ((TRef.of (sig := sig) (T := (⟨S16x16, .f32⟩ : BufTy)) main_v36 p q s).toBuf v : (⟨S16x16, .f32⟩ : BufTy).Contents (Elt F)) = v := rfl
theorem wr_main_v37 (p q s) (v : (⟨S16x16, .f32⟩ : BufTy).Contents (Elt F)) :
    ((TRef.of (sig := sig) (T := (⟨S16x16, .f32⟩ : BufTy)) main_v37 p q s).toBuf v : (⟨S16x16, .f32⟩ : BufTy).Contents (Elt F)) = v := rfl
theorem rd_main_v39 (p q s) (w : (main_v39 : Ref sig .tc).ty.Contents (Elt F)) :
    ((TRef.of (sig := sig) (T := (⟨S16x16, .f32⟩ : BufTy)) main_v39 p q s).ofBuf w : (⟨S16x16, .f32⟩ : BufTy).Contents (Elt F)) = (w : (⟨S16x16, .f32⟩ : BufTy).Contents (Elt F)) := rfl
theorem wr_main_v40 (p q s) (v : (⟨S16x16, .f32⟩ : BufTy).Contents (Elt F)) :
    ((TRef.of (sig := sig) (T := (⟨S16x16, .f32⟩ : BufTy)) main_v40 p q s).toBuf v : (⟨S16x16, .f32⟩ : BufTy).Contents (Elt F)) = v := rfl
theorem rd_main_arg2 (p q s) (w : (main_arg2 : Ref sig .tc).ty.Contents (Elt F)) :
    ((TRef.of (sig := sig) (T := (⟨S16x16, .f32⟩ : BufTy)) main_arg2 p q s).ofBuf w : (⟨S16x16, .f32⟩ : BufTy).Contents (Elt F)) = (w : (⟨S16x16, .f32⟩ : BufTy).Contents (Elt F)) := rfl
theorem wr_main_v52 (p q s) (v : (⟨S16x16, .f32⟩ : BufTy).Contents (Elt F)) :
    ((TRef.of (sig := sig) (T := (⟨S16x16, .f32⟩ : BufTy)) main_v52 p q s).toBuf v : (⟨S16x16, .f32⟩ : BufTy).Contents (Elt F)) = v := rfl
theorem wr_main_v53 (p q s) (v : (⟨S16x16, .f32⟩ : BufTy).Contents (Elt F)) :
    ((TRef.of (sig := sig) (T := (⟨S16x16, .f32⟩ : BufTy)) main_v53 p q s).toBuf v : (⟨S16x16, .f32⟩ : BufTy).Contents (Elt F)) = v := rfl
theorem rd_main_v55 (p q s) (w : (main_v55 : Ref sig .tc).ty.Contents (Elt F)) :
    ((TRef.of (sig := sig) (T := (⟨S16x16, .f32⟩ : BufTy)) main_v55 p q s).ofBuf w : (⟨S16x16, .f32⟩ : BufTy).Contents (Elt F)) = (w : (⟨S16x16, .f32⟩ : BufTy).Contents (Elt F)) := rfl
theorem wr_main_v56 (p q s) (v : (⟨S16x16, .f32⟩ : BufTy).Contents (Elt F)) :
    ((TRef.of (sig := sig) (T := (⟨S16x16, .f32⟩ : BufTy)) main_v56 p q s).toBuf v : (⟨S16x16, .f32⟩ : BufTy).Contents (Elt F)) = v := rfl

set_option maxHeartbeats 4000000 in
/-- The per-edge pair parameter: the clipped table's entry at the edge's pair of types. -/
theorem sig_value (W : Valuation τ sig (Elt F)) :
    (after hostOps0_5 (after hostOps0_4 (after hostOps0_3 (after hostOps0_2 (after hostOps0_1 (W))))) (Proc.devRef .tc main_v35) : FVec F S3200000 .f32) = Cert.LJ.kerPair gather_S256_S3200000x1_S3200000_n_0_n_n_0_1_1 Facts₀.bcast_S_S16x16 Facts₀.transposes_S16x16_S16x16_1_0 Facts₀.shapeCasts_S16x16_S256 (W (Proc.devRef .tc main_arg0)) (Cert.LJ.pairColumn Facts₀.bcast_S_S3200000 Facts₀.bcast_S3200000_S3200000x1_0 (W (Proc.devRef .tc main_v10)) (W (Proc.devRef .tc main_v19))) := by
  after_results_simp
  simp only [TypedRefs.ofBuf_toBuf, rd_main_arg0, wr_main_v20, wr_main_v21, rd_main_v23, wr_main_v24] <;> rfl

theorem sig_keeps_main_v1 (W : Valuation τ sig (Elt F)) :
    after hostOps0_5 (after hostOps0_4 (after hostOps0_3 (after hostOps0_2 (after hostOps0_1 (W))))) (Proc.devRef .tc main_v1) = W (Proc.devRef .tc main_v1) := by
  after_results <;> rfl

theorem sig_keeps_main_v10 (W : Valuation τ sig (Elt F)) :
    after hostOps0_5 (after hostOps0_4 (after hostOps0_3 (after hostOps0_2 (after hostOps0_1 (W))))) (Proc.devRef .tc main_v10) = W (Proc.devRef .tc main_v10) := by
  after_results <;> rfl

theorem sig_keeps_main_v19 (W : Valuation τ sig (Elt F)) :
    after hostOps0_5 (after hostOps0_4 (after hostOps0_3 (after hostOps0_2 (after hostOps0_1 (W))))) (Proc.devRef .tc main_v19) = W (Proc.devRef .tc main_v19) := by
  after_results <;> rfl

theorem sig_keeps_main_arg1 (W : Valuation τ sig (Elt F)) :
    after hostOps0_5 (after hostOps0_4 (after hostOps0_3 (after hostOps0_2 (after hostOps0_1 (W))))) (Proc.devRef .tc main_arg1) = W (Proc.devRef .tc main_arg1) := by
  after_results <;> rfl

theorem sig_keeps_main_arg2 (W : Valuation τ sig (Elt F)) :
    after hostOps0_5 (after hostOps0_4 (after hostOps0_3 (after hostOps0_2 (after hostOps0_1 (W))))) (Proc.devRef .tc main_arg2) = W (Proc.devRef .tc main_arg2) := by
  after_results <;> rfl

theorem sig_keeps_main_arg3 (W : Valuation τ sig (Elt F)) :
    after hostOps0_5 (after hostOps0_4 (after hostOps0_3 (after hostOps0_2 (after hostOps0_1 (W))))) (Proc.devRef .tc main_arg3) = W (Proc.devRef .tc main_arg3) := by
  after_results <;> rfl

theorem sig_keeps_main_arg4 (W : Valuation τ sig (Elt F)) :
    after hostOps0_5 (after hostOps0_4 (after hostOps0_3 (after hostOps0_2 (after hostOps0_1 (W))))) (Proc.devRef .tc main_arg4) = W (Proc.devRef .tc main_arg4) := by
  after_results <;> rfl

/-! ## The dlt chain -/

set_option maxHeartbeats 4000000 in
/-- The per-edge pair parameter: the clipped table's entry at the edge's pair of types. -/
theorem dlt_value (W : Valuation τ sig (Elt F)) :
    (after hostOps0_10 (after hostOps0_9 (after hostOps0_8 (after hostOps0_7 (after hostOps0_6 (W))))) (Proc.devRef .tc main_v51) : FVec F S3200000 .f32) = Cert.LJ.kerPair gather_S256_S3200000x1_S3200000_n_0_n_n_0_1_1 Facts₀.bcast_S_S16x16 Facts₀.transposes_S16x16_S16x16_1_0 Facts₀.shapeCasts_S16x16_S256 (W (Proc.devRef .tc main_arg1)) (Cert.LJ.pairColumn Facts₀.bcast_S_S3200000 Facts₀.bcast_S3200000_S3200000x1_0 (W (Proc.devRef .tc main_v10)) (W (Proc.devRef .tc main_v19))) := by
  after_results_simp
  simp only [TypedRefs.ofBuf_toBuf, rd_main_arg1, wr_main_v36, wr_main_v37, rd_main_v39, wr_main_v40] <;> rfl

theorem dlt_keeps_main_v1 (W : Valuation τ sig (Elt F)) :
    after hostOps0_10 (after hostOps0_9 (after hostOps0_8 (after hostOps0_7 (after hostOps0_6 (W))))) (Proc.devRef .tc main_v1) = W (Proc.devRef .tc main_v1) := by
  after_results <;> rfl

theorem dlt_keeps_main_v10 (W : Valuation τ sig (Elt F)) :
    after hostOps0_10 (after hostOps0_9 (after hostOps0_8 (after hostOps0_7 (after hostOps0_6 (W))))) (Proc.devRef .tc main_v10) = W (Proc.devRef .tc main_v10) := by
  after_results <;> rfl

theorem dlt_keeps_main_v19 (W : Valuation τ sig (Elt F)) :
    after hostOps0_10 (after hostOps0_9 (after hostOps0_8 (after hostOps0_7 (after hostOps0_6 (W))))) (Proc.devRef .tc main_v19) = W (Proc.devRef .tc main_v19) := by
  after_results <;> rfl

theorem dlt_keeps_main_v35 (W : Valuation τ sig (Elt F)) :
    after hostOps0_10 (after hostOps0_9 (after hostOps0_8 (after hostOps0_7 (after hostOps0_6 (W))))) (Proc.devRef .tc main_v35) = W (Proc.devRef .tc main_v35) := by
  after_results <;> rfl

theorem dlt_keeps_main_arg2 (W : Valuation τ sig (Elt F)) :
    after hostOps0_10 (after hostOps0_9 (after hostOps0_8 (after hostOps0_7 (after hostOps0_6 (W))))) (Proc.devRef .tc main_arg2) = W (Proc.devRef .tc main_arg2) := by
  after_results <;> rfl

theorem dlt_keeps_main_arg3 (W : Valuation τ sig (Elt F)) :
    after hostOps0_10 (after hostOps0_9 (after hostOps0_8 (after hostOps0_7 (after hostOps0_6 (W))))) (Proc.devRef .tc main_arg3) = W (Proc.devRef .tc main_arg3) := by
  after_results <;> rfl

theorem dlt_keeps_main_arg4 (W : Valuation τ sig (Elt F)) :
    after hostOps0_10 (after hostOps0_9 (after hostOps0_8 (after hostOps0_7 (after hostOps0_6 (W))))) (Proc.devRef .tc main_arg4) = W (Proc.devRef .tc main_arg4) := by
  after_results <;> rfl

/-! ## The eps chain and the five re-laid arrays -/

set_option maxHeartbeats 4000000 in
/-- Window 2's array. -/
theorem win_eps (W : Valuation τ sig (Elt F)) :
    (after hostOps0_15 (after hostOps0_14 (after hostOps0_13 (after hostOps0_12 (after hostOps0_11 (W))))) (Proc.devRef .tc main_v70) : FVec F S25000x128 .f32) = shapeCast S25000x128 (Cert.LJ.kerPair gather_S256_S3200000x1_S3200000_n_0_n_n_0_1_1 Facts₀.bcast_S_S16x16 Facts₀.transposes_S16x16_S16x16_1_0 Facts₀.shapeCasts_S16x16_S256 (W (Proc.devRef .tc main_arg2)) (Cert.LJ.pairColumn Facts₀.bcast_S_S3200000 Facts₀.bcast_S3200000_S3200000x1_0 (W (Proc.devRef .tc main_v10)) (W (Proc.devRef .tc main_v19)))) Facts₀.shapeCasts_S3200000_S25000x128 := by
  after_results_simp
  simp only [TypedRefs.ofBuf_toBuf, rd_main_arg2, wr_main_v52, wr_main_v53, rd_main_v55, wr_main_v56] <;> rfl

/-- A per-edge array re-laid as 25000×128. -/
theorem win_sig (W : Valuation τ sig (Elt F)) :
    (after hostOps0_15 (after hostOps0_14 (after hostOps0_13 (after hostOps0_12 (after hostOps0_11 (W))))) (Proc.devRef .tc main_v68) : FVec F S25000x128 .f32) = shapeCast S25000x128 (W (Proc.devRef .tc main_v35)) Facts₀.shapeCasts_S3200000_S25000x128 := by
  after_results <;> rfl

/-- A per-edge array re-laid as 25000×128. -/
theorem win_dlt (W : Valuation τ sig (Elt F)) :
    (after hostOps0_15 (after hostOps0_14 (after hostOps0_13 (after hostOps0_12 (after hostOps0_11 (W))))) (Proc.devRef .tc main_v69) : FVec F S25000x128 .f32) = shapeCast S25000x128 (W (Proc.devRef .tc main_v51)) Facts₀.shapeCasts_S3200000_S25000x128 := by
  after_results <;> rfl

/-- A per-edge array re-laid as 25000×128. -/
theorem win_len (W : Valuation τ sig (Elt F)) :
    (after hostOps0_15 (after hostOps0_14 (after hostOps0_13 (after hostOps0_12 (after hostOps0_11 (W))))) (Proc.devRef .tc main_v71) : FVec F S25000x128 .f32) = shapeCast S25000x128 (W (Proc.devRef .tc main_arg3)) Facts₀.shapeCasts_S3200000_S25000x128 := by
  after_results <;> rfl

/-- A per-edge array re-laid as 25000×128. -/
theorem win_cut (W : Valuation τ sig (Elt F)) :
    (after hostOps0_15 (after hostOps0_14 (after hostOps0_13 (after hostOps0_12 (after hostOps0_11 (W))))) (Proc.devRef .tc main_v72) : FVec F S25000x128 .f32) = shapeCast S25000x128 (W (Proc.devRef .tc main_arg4)) Facts₀.shapeCasts_S3200000_S25000x128 := by
  after_results <;> rfl

theorem win_keeps_main_v1 (W : Valuation τ sig (Elt F)) :
    after hostOps0_15 (after hostOps0_14 (after hostOps0_13 (after hostOps0_12 (after hostOps0_11 (W))))) (Proc.devRef .tc main_v1) = W (Proc.devRef .tc main_v1) := by
  after_results <;> rfl

end Cert.KernelIdeal.HostRead

end
-- ==== Proof.KernelValue.lean ====
/-
  The kernel program's result as a function of its arguments.

  Before the region the host lays the five per-edge arrays out as 25000×128 (three of them pair parameters taken from
  the clipped tables); the region leaves the edge energies of those five arrays in its output array; after the region
  the host lays that array back flat and adds every edge's energy onto its centre atom.
-/
import proofs.«166587_j50697793962073_1_alg».proof.Proof.KernelBlocks
import proofs.«166587_j50697793962073_1_alg».proof.Proof.KernelHostRead

set_option maxRecDepth 16384

noncomputable section

namespace Cert.KernelIdeal.Value

open Cert.KernelIdeal Cert.KernelIdeal.Gen Cert.KernelIdeal.HostRead
open Idealize.ShloMosaic Idealize.ShloMosaic.TcCoe Idealize.SL.Sem Idealize.ShloMosaic.StableHlo

/-- Every edge's flat table position, from the endpoint and type arrays. -/
def pairCol (x5 : IVec S2x3200000 32) (x6 : IVec S100000 32) : IVec S3200000x1 32 :=
  Cert.LJ.pairColumn Facts₀.bcast_S_S3200000 Facts₀.bcast_S3200000_S3200000x1_0 (Cert.LJ.atomTypes gather_S100000_S3200000x1_S3200000_n_0_n_n_0_1_1 Facts₀.bcast_S_S3200000 Facts₀.bcast_S3200000_S3200000x1_0 x6 (Cert.LJ.endpointIds ![0, 0] Facts₀.slices_S2x3200000_S1x3200000_0_0 Facts₀.shapeCasts_S1x3200000_S3200000 x5)) (Cert.LJ.atomTypes gather_S100000_S3200000x1_S3200000_n_0_n_n_0_1_1 Facts₀.bcast_S_S3200000 Facts₀.bcast_S3200000_S3200000x1_0 x6 (Cert.LJ.endpointIds ![1, 0] Facts₀.slices_S2x3200000_S1x3200000_1_0 Facts₀.shapeCasts_S1x3200000_S3200000 x5))

/-- The program's result as a function of the seven argument arrays. -/
def resultOf (x0 x1 x2 : FVec Ideal S16x16 .f32) (x3 x4 : FVec Ideal S3200000 .f32) (x5 : IVec S2x3200000 32) (x6 : IVec S100000 32) : FVec Ideal S100000x1 .f32 :=
  Cert.LJ.atomSums scatter_S100000_S3200000x1_S3200000_n_0_0_1 Facts₀.bcast_S_S100000 Facts₀.bcast_S100000_S100000x1_0
    Facts₀.bcast_S3200000_S3200000x1_0 (Cert.LJ.endpointIds ![0, 0] Facts₀.slices_S2x3200000_S1x3200000_0_0 Facts₀.shapeCasts_S1x3200000_S3200000 x5)
    (shapeCast S3200000 (Blocks.energies
      (shapeCast S25000x128 (Cert.LJ.kerPair gather_S256_S3200000x1_S3200000_n_0_n_n_0_1_1 Facts₀.bcast_S_S16x16 Facts₀.transposes_S16x16_S16x16_1_0 Facts₀.shapeCasts_S16x16_S256 x0 (pairCol x5 x6)) Facts₀.shapeCasts_S3200000_S25000x128)
      (shapeCast S25000x128 (Cert.LJ.kerPair gather_S256_S3200000x1_S3200000_n_0_n_n_0_1_1 Facts₀.bcast_S_S16x16 Facts₀.transposes_S16x16_S16x16_1_0 Facts₀.shapeCasts_S16x16_S256 x1 (pairCol x5 x6)) Facts₀.shapeCasts_S3200000_S25000x128)
      (shapeCast S25000x128 (Cert.LJ.kerPair gather_S256_S3200000x1_S3200000_n_0_n_n_0_1_1 Facts₀.bcast_S_S16x16 Facts₀.transposes_S16x16_S16x16_1_0 Facts₀.shapeCasts_S16x16_S256 x2 (pairCol x5 x6)) Facts₀.shapeCasts_S3200000_S25000x128)
      (shapeCast S25000x128 x3 Facts₀.shapeCasts_S3200000_S25000x128)
      (shapeCast S25000x128 x4 Facts₀.shapeCasts_S3200000_S25000x128))
      Facts₀.shapeCasts_S25000x128_S3200000)

variable (m : (ℓ : Loc nD τ sig) → Buf (Elt Ideal) ℓ)

/-- The contents the region finds are the sixteen stretches' results, in a row, over the launch contents. -/
theorem V0_nested (c : Dev nD) :
    V0 m c = after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 ((fun b => m (c, b)))))))))))))))))) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b)) = _
  simp only [List.flatten_cons, List.flatten_nil, List.append_nil, AfterAppend.after_append]

/-- Window 0's array: sig, re-laid. -/
theorem window_sig (c : Dev nD) : (V m c main_v68 : FVec Ideal S25000x128 .f32)
    = shapeCast S25000x128 (Cert.LJ.kerPair (F := Ideal) gather_S256_S3200000x1_S3200000_n_0_n_n_0_1_1 Facts₀.bcast_S_S16x16 Facts₀.transposes_S16x16_S16x16_1_0 Facts₀.shapeCasts_S16x16_S256 (m ((c : Thread nD τ).loc main_arg0)) (pairCol (m ((c : Thread nD τ).loc main_arg5)) (m ((c : Thread nD τ).loc main_arg6)))) Facts₀.shapeCasts_S3200000_S25000x128 := by
  show V0 m c (Proc.devRef .tc main_v68) = _
  rw [V0_nested, win_sig, dlt_keeps_main_v35, sig_value, ids_keeps_main_arg0, ids_type1, ids_type2]
  rfl

/-- Window 1's array: dlt, re-laid. -/
theorem window_dlt (c : Dev nD) : (V m c main_v69 : FVec Ideal S25000x128 .f32)
    = shapeCast S25000x128 (Cert.LJ.kerPair (F := Ideal) gather_S256_S3200000x1_S3200000_n_0_n_n_0_1_1 Facts₀.bcast_S_S16x16 Facts₀.transposes_S16x16_S16x16_1_0 Facts₀.shapeCasts_S16x16_S256 (m ((c : Thread nD τ).loc main_arg1)) (pairCol (m ((c : Thread nD τ).loc main_arg5)) (m ((c : Thread nD τ).loc main_arg6)))) Facts₀.shapeCasts_S3200000_S25000x128 := by
  show V0 m c (Proc.devRef .tc main_v69) = _
  rw [V0_nested, win_dlt, dlt_value, sig_keeps_main_arg1, sig_keeps_main_v10, sig_keeps_main_v19, ids_keeps_main_arg1,
    ids_type1, ids_type2]
  rfl

/-- Window 2's array: eps, re-laid. -/
theorem window_eps (c : Dev nD) : (V m c main_v70 : FVec Ideal S25000x128 .f32)
    = shapeCast S25000x128 (Cert.LJ.kerPair (F := Ideal) gather_S256_S3200000x1_S3200000_n_0_n_n_0_1_1 Facts₀.bcast_S_S16x16 Facts₀.transposes_S16x16_S16x16_1_0 Facts₀.shapeCasts_S16x16_S256 (m ((c : Thread nD τ).loc main_arg2)) (pairCol (m ((c : Thread nD τ).loc main_arg5)) (m ((c : Thread nD τ).loc main_arg6)))) Facts₀.shapeCasts_S3200000_S25000x128 := by
  show V0 m c (Proc.devRef .tc main_v70) = _
  rw [V0_nested, win_eps, dlt_keeps_main_arg2, dlt_keeps_main_v10, dlt_keeps_main_v19, sig_keeps_main_arg2,
    sig_keeps_main_v10, sig_keeps_main_v19, ids_keeps_main_arg2, ids_type1, ids_type2]
  rfl

/-- Window 3's array: the edge lengths, re-laid. -/
theorem window_len (c : Dev nD) : (V m c main_v71 : FVec Ideal S25000x128 .f32)
    = shapeCast S25000x128 (m ((c : Thread nD τ).loc main_arg3)) Facts₀.shapeCasts_S3200000_S25000x128 := by
  show V0 m c (Proc.devRef .tc main_v71) = _
  rw [V0_nested, win_len, dlt_keeps_main_arg3, sig_keeps_main_arg3, ids_keeps_main_arg3]

/-- Window 4's array: the cutoffs, re-laid. -/
theorem window_cut (c : Dev nD) : (V m c main_v72 : FVec Ideal S25000x128 .f32)
    = shapeCast S25000x128 (m ((c : Thread nD τ).loc main_arg4)) Facts₀.shapeCasts_S3200000_S25000x128 := by
  show V0 m c (Proc.devRef .tc main_v72) = _
  rw [V0_nested, win_cut, dlt_keeps_main_arg4, sig_keeps_main_arg4, ids_keeps_main_arg4]

/-- The centre endpoints, as the host tail finds them. -/
theorem center_eq (c : Dev nD) : (V0 m c (Proc.devRef .tc main_v1) : IVec S3200000 32)
    = Cert.LJ.endpointIds ![0, 0] Facts₀.slices_S2x3200000_S1x3200000_0_0 Facts₀.shapeCasts_S1x3200000_S3200000 (m ((c : Thread nD τ).loc main_arg5)) := by
  rw [V0_nested, win_keeps_main_v1, dlt_keeps_main_v1, sig_keeps_main_v1, ids_center]

/-- The host tail's result buffer is the per-atom sums of the region's output array, laid back flat. -/
theorem tail_eq (c : Dev nD) :
    Pipeline.afterTail₀ cfgs (dats m) 0 (V0 m) [hostOps1] c main_v78 = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h73 : Pipeline.withArrays spec0 c (V0 m c) (fun w => (dats m 0 c).arrAt w cfg0.N) (Proc.devRef .tc main_v73)
      = (dats m 0 c).arrAt 5 cfg0.N := Pipeline.withArrays_arr spec0 launch0.win.arr_inj c _ _ 5
  have h1 : Pipeline.withArrays spec0 c (V0 m c) (fun w => (dats m 0 c).arrAt w cfg0.N) (Proc.devRef .tc main_v1)
      = V0 m c (Proc.devRef .tc main_v1) :=
    Pipeline.withArrays_of_ne _ c (V0 m c) _ main_v1 (by exact (by decide : ∀ w, Pipeline.arrRef spec0 w ≠ main_v1))
  unfold Pipeline.afterTail₀
  show StableHlo.after hostOps1 _ (Proc.devRef .tc main_v78) = _
  after_results
  rw [h73, h1, Blocks.final, window_sig, window_dlt, window_eps, window_len, window_cut, center_eq]
  rfl

/-- THE RUN: every weakly fair execution terminates with the result buffer at `resultOf` of the arguments and the
    arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v78) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v78 (Pipeline.mem_restRefs_of main_v78 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Value

end
-- ==== Proof.RefRun.lean ====
/-
  The reference program's run, read back one stretch at a time.

  Its @main is a straight line of 152 host operations (the upper-triangle helpers and relu stand inline at their call
  sites): the endpoint rows and their atom types (24), then for each parameter matrix the symmetrized table, flattened,
  taken at every edge's pair of types and clipped at zero (37 each), then the energy arithmetic and the per-atom sum
  (17). Every weakly fair execution ends with each buffer at the fold of the operations' results over the launch
  contents; each stretch is read over contents that are no further specified.
-/
import proofs.«166587_j50697793962073_1_alg».proof.Proof.Gen.ReferenceIdeal
import proofs.«166587_j50697793962073_1_alg».proof.Proof.LJHost
import proofs.«166587_j50697793962073_1_alg».proof.Proof.LibAfterAppend
import proofs.«166587_j50697793962073_1_alg».proof.Proof.LibTypedRefs
import Idealize.ShloMosaic.Lib.StableHlo.Run

set_option maxRecDepth 16384

noncomputable section

namespace Cert.ReferenceIdeal.HandRun

open Cert.ReferenceIdeal Cert.ReferenceIdeal.Gen
open Idealize.ShloMosaic Idealize.ShloMosaic.TcCoe Idealize.SL.Sem Idealize.ShloMosaic.StableHlo

variable {F : FTy → Type} [FloatOps F]

/-! ## The five stretches of @main -/

/-- The endpoint rows and their atom types. -/
abbrev idsOps : List (HloOp τ sig (Elt F)) :=
  [ unary main_arg5 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg5 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v3 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v3 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v3 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg6 main_v9 main_v10 ((fun x i => Host.gather gather_S100000_S3200000x1_S3200000_n_0_n_n_0_1_1 x i) : (⟨S100000, .i32⟩ : BufTy).Contents (Elt F) → (⟨S3200000x1, .i32⟩ : BufTy).Contents (Elt F) → (⟨S3200000, .i32⟩ : BufTy).Contents (Elt F)),
    unary main_arg5 main_v11 ((extractStridedSlice S1x3200000 ![1, 0] · slices_S2x3200000_S1x3200000_1_0) : (⟨S2x3200000, .i32⟩ : BufTy).Contents (Elt F) → (⟨S1x3200000, .i32⟩ : BufTy).Contents (Elt F)),
    reshape main_v11 main_v12 rfl shapeCasts_S1x3200000_S3200000,
    nullary main_c_1 (constantI S_ 32 0#32),
    unary main_c_1 main_v13 (broadcastInDim S3200000 ![] bcast_S_S3200000 : (⟨S_, .i32⟩ : BufTy).Contents (Elt F) → (⟨S3200000, .i32⟩ : BufTy).Contents (Elt F)),
    binary main_v12 main_v13 main_v14 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v15 (broadcastInDim S3200000 ![] bcast_S_S3200000 : (⟨S_, .i32⟩ : BufTy).Contents (Elt F) → (⟨S3200000, .i32⟩ : BufTy).Contents (Elt F)),
    binary main_v12 main_v15 main_v16 (addi : (⟨S3200000, .i32⟩ : BufTy).Contents (Elt F) → (⟨S3200000, .i32⟩ : BufTy).Contents (Elt F) → (⟨S3200000, .i32⟩ : BufTy).Contents (Elt F)),
    ternary main_v14 main_v16 main_v12 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v17 main_v18 (broadcastInDim S3200000x1 ![0] bcast_S3200000_S3200000x1_0 : (⟨S3200000, .i32⟩ : BufTy).Contents (Elt F) → (⟨S3200000x1, .i32⟩ : BufTy).Contents (Elt F)),
    binary main_arg6 main_v18 main_v19 ((fun x i => Host.gather gather_S100000_S3200000x1_S3200000_n_0_n_n_0_1_1 x i) : (⟨S100000, .i32⟩ : BufTy).Contents (Elt F) → (⟨S3200000x1, .i32⟩ : BufTy).Contents (Elt F) → (⟨S3200000, .i32⟩ : BufTy).Contents (Elt F)) ]
theorem idsOps_sub : (idsOps : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- The sig chain. -/
abbrev sigOps : List (HloOp τ sig (Elt F)) :=
  [ TRef.nullary (TRef.of (T := ⟨S16x16, .i32⟩) main_call0_v0) (iotaInDim S16x16 32 0),
    TRef.nullary (TRef.of (T := ⟨S_, .i32⟩) main_call0_c) (constantI S_ 32 4294967295#32),
    TRef.unary (TRef.of (T := ⟨S_, .i32⟩) main_call0_c) (TRef.of (T := ⟨S16x16, .i32⟩) main_call0_v1) (broadcastInDim S16x16 ![] bcast_S_S16x16),
    TRef.binary (TRef.of (T := ⟨S16x16, .i32⟩) main_call0_v0) (TRef.of (T := ⟨S16x16, .i32⟩) main_call0_v1) (TRef.of (T := ⟨S16x16, .i32⟩) main_call0_v2) addi,
    TRef.nullary (TRef.of (T := ⟨S16x16, .i32⟩) main_call0_v3) (iotaInDim S16x16 32 1),
    TRef.binary (TRef.of (T := ⟨S16x16, .i32⟩) main_call0_v2) (TRef.of (T := ⟨S16x16, .i32⟩) main_call0_v3) (TRef.of (T := ⟨S16x16, .i1⟩) main_call0_v4) (cmpi .sge),
    TRef.nullary (TRef.of (T := ⟨S_, .f32⟩) main_call0_cst) (constant S_ .f32 0x00000000#32),
    TRef.unary (TRef.of (T := ⟨S_, .f32⟩) main_call0_cst) (TRef.of (T := ⟨S16x16, .f32⟩) main_call0_v5) (broadcastInDim S16x16 ![] bcast_S_S16x16),
    TRef.ternary (TRef.of (T := ⟨S16x16, .i1⟩) main_call0_v4) (TRef.of (T := ⟨S16x16, .f32⟩) main_call0_v5) (TRef.of (T := ⟨S16x16, .f32⟩) main_arg0) (TRef.of (T := ⟨S16x16, .f32⟩) main_v20) select,
    TRef.nullary (TRef.of (T := ⟨S16x16, .i32⟩) main_call1_v0) (iotaInDim S16x16 32 0),
    TRef.nullary (TRef.of (T := ⟨S_, .i32⟩) main_call1_c) (constantI S_ 32 0#32),
    TRef.unary (TRef.of (T := ⟨S_, .i32⟩) main_call1_c) (TRef.of (T := ⟨S16x16, .i32⟩) main_call1_v1) (broadcastInDim S16x16 ![] bcast_S_S16x16),
    TRef.binary (TRef.of (T := ⟨S16x16, .i32⟩) main_call1_v0) (TRef.of (T := ⟨S16x16, .i32⟩) main_call1_v1) (TRef.of (T := ⟨S16x16, .i32⟩) main_call1_v2) addi,
    TRef.nullary (TRef.of (T := ⟨S16x16, .i32⟩) main_call1_v3) (iotaInDim S16x16 32 1),
    TRef.binary (TRef.of (T := ⟨S16x16, .i32⟩) main_call1_v2) (TRef.of (T := ⟨S16x16, .i32⟩) main_call1_v3) (TRef.of (T := ⟨S16x16, .i1⟩) main_call1_v4) (cmpi .sge),
    TRef.nullary (TRef.of (T := ⟨S_, .f32⟩) main_call1_cst) (constant S_ .f32 0x00000000#32),
    TRef.unary (TRef.of (T := ⟨S_, .f32⟩) main_call1_cst) (TRef.of (T := ⟨S16x16, .f32⟩) main_call1_v5) (broadcastInDim S16x16 ![] bcast_S_S16x16),
    TRef.ternary (TRef.of (T := ⟨S16x16, .i1⟩) main_call1_v4) (TRef.of (T := ⟨S16x16, .f32⟩) main_call1_v5) (TRef.of (T := ⟨S16x16, .f32⟩) main_arg0) (TRef.of (T := ⟨S16x16, .f32⟩) main_v21) select,
    unary main_v21 main_v22 ((transpose S16x16 [1, 0] · transposes_S16x16_S16x16_1_0) : (⟨S16x16, .f32⟩ : BufTy).Contents (Elt F) → (⟨S16x16, .f32⟩ : BufTy).Contents (Elt F)),
    binary main_v20 main_v22 main_v23 (addf : (⟨S16x16, .f32⟩ : BufTy).Contents (Elt F) → (⟨S16x16, .f32⟩ : BufTy).Contents (Elt F) → (⟨S16x16, .f32⟩ : BufTy).Contents (Elt F)),
    reshape main_v23 main_v24 rfl shapeCasts_S16x16_S256,
    nullary main_c_3 (constantI S_ 32 16#32),
    unary main_c_3 main_v25 (broadcastInDim S3200000 ![] bcast_S_S3200000 : (⟨S_, .i32⟩ : BufTy).Contents (Elt F) → (⟨S3200000, .i32⟩ : BufTy).Contents (Elt F)),
    binary main_v10 main_v25 main_v26 (muli : (⟨S3200000, .i32⟩ : BufTy).Contents (Elt F) → (⟨S3200000, .i32⟩ : BufTy).Contents (Elt F) → (⟨S3200000, .i32⟩ : BufTy).Contents (Elt F)),
    binary main_v26 main_v19 main_v27 (addi : (⟨S3200000, .i32⟩ : BufTy).Contents (Elt F) → (⟨S3200000, .i32⟩ : BufTy).Contents (Elt F) → (⟨S3200000, .i32⟩ : BufTy).Contents (Elt F)),
    nullary main_c_4 (constantI S_ 32 0#32),
    unary main_c_4 main_v28 (broadcastInDim S3200000 ![] bcast_S_S3200000 : (⟨S_, .i32⟩ : BufTy).Contents (Elt F) → (⟨S3200000, .i32⟩ : BufTy).Contents (Elt F)),
    binary main_v27 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 256#32),
    unary main_c_5 main_v30 (broadcastInDim S3200000 ![] bcast_S_S3200000 : (⟨S_, .i32⟩ : BufTy).Contents (Elt F) → (⟨S3200000, .i32⟩ : BufTy).Contents (Elt F)),
    binary main_v27 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v27 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v24 main_v33 main_v34 ((fun x i => Host.gather gather_S256_S3200000x1_S3200000_n_0_n_n_0_1_1 x i) : (⟨S256, .f32⟩ : BufTy).Contents (Elt F) → (⟨S3200000x1, .i32⟩ : BufTy).Contents (Elt F) → (⟨S3200000, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S3200000, .f32⟩) main_call2_v0) (broadcastInDim S3200000 ![] bcast_S_S3200000),
    TRef.binary (TRef.of (T := ⟨S3200000, .f32⟩) main_v34) (TRef.of (T := ⟨S3200000, .f32⟩) main_call2_v0) (TRef.of (T := ⟨S3200000, .f32⟩) main_v35) maximumf ]
theorem sigOps_sub : (sigOps : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

/-- The dlt chain. -/
abbrev dltOps : List (HloOp τ sig (Elt F)) :=
  [ TRef.nullary (TRef.of (T := ⟨S16x16, .i32⟩) main_call3_v0) (iotaInDim S16x16 32 0),
    TRef.nullary (TRef.of (T := ⟨S_, .i32⟩) main_call3_c) (constantI S_ 32 4294967295#32),
    TRef.unary (TRef.of (T := ⟨S_, .i32⟩) main_call3_c) (TRef.of (T := ⟨S16x16, .i32⟩) main_call3_v1) (broadcastInDim S16x16 ![] bcast_S_S16x16),
    TRef.binary (TRef.of (T := ⟨S16x16, .i32⟩) main_call3_v0) (TRef.of (T := ⟨S16x16, .i32⟩) main_call3_v1) (TRef.of (T := ⟨S16x16, .i32⟩) main_call3_v2) addi,
    TRef.nullary (TRef.of (T := ⟨S16x16, .i32⟩) main_call3_v3) (iotaInDim S16x16 32 1),
    TRef.binary (TRef.of (T := ⟨S16x16, .i32⟩) main_call3_v2) (TRef.of (T := ⟨S16x16, .i32⟩) main_call3_v3) (TRef.of (T := ⟨S16x16, .i1⟩) main_call3_v4) (cmpi .sge),
    TRef.nullary (TRef.of (T := ⟨S_, .f32⟩) main_call3_cst) (constant S_ .f32 0x00000000#32),
    TRef.unary (TRef.of (T := ⟨S_, .f32⟩) main_call3_cst) (TRef.of (T := ⟨S16x16, .f32⟩) main_call3_v5) (broadcastInDim S16x16 ![] bcast_S_S16x16),
    TRef.ternary (TRef.of (T := ⟨S16x16, .i1⟩) main_call3_v4) (TRef.of (T := ⟨S16x16, .f32⟩) main_call3_v5) (TRef.of (T := ⟨S16x16, .f32⟩) main_arg1) (TRef.of (T := ⟨S16x16, .f32⟩) main_v36) select,
    TRef.nullary (TRef.of (T := ⟨S16x16, .i32⟩) main_call4_v0) (iotaInDim S16x16 32 0),
    TRef.nullary (TRef.of (T := ⟨S_, .i32⟩) main_call4_c) (constantI S_ 32 0#32),
    TRef.unary (TRef.of (T := ⟨S_, .i32⟩) main_call4_c) (TRef.of (T := ⟨S16x16, .i32⟩) main_call4_v1) (broadcastInDim S16x16 ![] bcast_S_S16x16),
    TRef.binary (TRef.of (T := ⟨S16x16, .i32⟩) main_call4_v0) (TRef.of (T := ⟨S16x16, .i32⟩) main_call4_v1) (TRef.of (T := ⟨S16x16, .i32⟩) main_call4_v2) addi,
    TRef.nullary (TRef.of (T := ⟨S16x16, .i32⟩) main_call4_v3) (iotaInDim S16x16 32 1),
    TRef.binary (TRef.of (T := ⟨S16x16, .i32⟩) main_call4_v2) (TRef.of (T := ⟨S16x16, .i32⟩) main_call4_v3) (TRef.of (T := ⟨S16x16, .i1⟩) main_call4_v4) (cmpi .sge),
    TRef.nullary (TRef.of (T := ⟨S_, .f32⟩) main_call4_cst) (constant S_ .f32 0x00000000#32),
    TRef.unary (TRef.of (T := ⟨S_, .f32⟩) main_call4_cst) (TRef.of (T := ⟨S16x16, .f32⟩) main_call4_v5) (broadcastInDim S16x16 ![] bcast_S_S16x16),
    TRef.ternary (TRef.of (T := ⟨S16x16, .i1⟩) main_call4_v4) (TRef.of (T := ⟨S16x16, .f32⟩) main_call4_v5) (TRef.of (T := ⟨S16x16, .f32⟩) main_arg1) (TRef.of (T := ⟨S16x16, .f32⟩) main_v37) select,
    unary main_v37 main_v38 ((transpose S16x16 [1, 0] · transposes_S16x16_S16x16_1_0) : (⟨S16x16, .f32⟩ : BufTy).Contents (Elt F) → (⟨S16x16, .f32⟩ : BufTy).Contents (Elt F)),
    binary main_v36 main_v38 main_v39 (addf : (⟨S16x16, .f32⟩ : BufTy).Contents (Elt F) → (⟨S16x16, .f32⟩ : BufTy).Contents (Elt F) → (⟨S16x16, .f32⟩ : BufTy).Contents (Elt F)),
    reshape main_v39 main_v40 rfl shapeCasts_S16x16_S256,
    nullary main_c_6 (constantI S_ 32 16#32),
    unary main_c_6 main_v41 (broadcastInDim S3200000 ![] bcast_S_S3200000 : (⟨S_, .i32⟩ : BufTy).Contents (Elt F) → (⟨S3200000, .i32⟩ : BufTy).Contents (Elt F)),
    binary main_v10 main_v41 main_v42 (muli : (⟨S3200000, .i32⟩ : BufTy).Contents (Elt F) → (⟨S3200000, .i32⟩ : BufTy).Contents (Elt F) → (⟨S3200000, .i32⟩ : BufTy).Contents (Elt F)),
    binary main_v42 main_v19 main_v43 (addi : (⟨S3200000, .i32⟩ : BufTy).Contents (Elt F) → (⟨S3200000, .i32⟩ : BufTy).Contents (Elt F) → (⟨S3200000, .i32⟩ : BufTy).Contents (Elt F)),
    nullary main_c_7 (constantI S_ 32 0#32),
    unary main_c_7 main_v44 (broadcastInDim S3200000 ![] bcast_S_S3200000 : (⟨S_, .i32⟩ : BufTy).Contents (Elt F) → (⟨S3200000, .i32⟩ : BufTy).Contents (Elt F)),
    binary main_v43 main_v44 main_v45 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 256#32),
    unary main_c_8 main_v46 (broadcastInDim S3200000 ![] bcast_S_S3200000 : (⟨S_, .i32⟩ : BufTy).Contents (Elt F) → (⟨S3200000, .i32⟩ : BufTy).Contents (Elt F)),
    binary main_v43 main_v46 main_v47 (addi : (⟨S3200000, .i32⟩ : BufTy).Contents (Elt F) → (⟨S3200000, .i32⟩ : BufTy).Contents (Elt F) → (⟨S3200000, .i32⟩ : BufTy).Contents (Elt F)),
    ternary main_v45 main_v47 main_v43 main_v48 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v48 main_v49 (broadcastInDim S3200000x1 ![0] bcast_S3200000_S3200000x1_0 : (⟨S3200000, .i32⟩ : BufTy).Contents (Elt F) → (⟨S3200000x1, .i32⟩ : BufTy).Contents (Elt F)),
    binary main_v40 main_v49 main_v50 ((fun x i => Host.gather gather_S256_S3200000x1_S3200000_n_0_n_n_0_1_1 x i) : (⟨S256, .f32⟩ : BufTy).Contents (Elt F) → (⟨S3200000x1, .i32⟩ : BufTy).Contents (Elt F) → (⟨S3200000, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S3200000, .f32⟩) main_call5_v0) (broadcastInDim S3200000 ![] bcast_S_S3200000),
    TRef.binary (TRef.of (T := ⟨S3200000, .f32⟩) main_v50) (TRef.of (T := ⟨S3200000, .f32⟩) main_call5_v0) (TRef.of (T := ⟨S3200000, .f32⟩) main_v51) maximumf ]
theorem dltOps_sub : (dltOps : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

/-- The eps chain. -/
abbrev epsOps : List (HloOp τ sig (Elt F)) :=
  [ TRef.nullary (TRef.of (T := ⟨S16x16, .i32⟩) main_call6_v0) (iotaInDim S16x16 32 0),
    TRef.nullary (TRef.of (T := ⟨S_, .i32⟩) main_call6_c) (constantI S_ 32 4294967295#32),
    TRef.unary (TRef.of (T := ⟨S_, .i32⟩) main_call6_c) (TRef.of (T := ⟨S16x16, .i32⟩) main_call6_v1) (broadcastInDim S16x16 ![] bcast_S_S16x16),
    TRef.binary (TRef.of (T := ⟨S16x16, .i32⟩) main_call6_v0) (TRef.of (T := ⟨S16x16, .i32⟩) main_call6_v1) (TRef.of (T := ⟨S16x16, .i32⟩) main_call6_v2) addi,
    TRef.nullary (TRef.of (T := ⟨S16x16, .i32⟩) main_call6_v3) (iotaInDim S16x16 32 1),
    TRef.binary (TRef.of (T := ⟨S16x16, .i32⟩) main_call6_v2) (TRef.of (T := ⟨S16x16, .i32⟩) main_call6_v3) (TRef.of (T := ⟨S16x16, .i1⟩) main_call6_v4) (cmpi .sge),
    TRef.nullary (TRef.of (T := ⟨S_, .f32⟩) main_call6_cst) (constant S_ .f32 0x00000000#32),
    TRef.unary (TRef.of (T := ⟨S_, .f32⟩) main_call6_cst) (TRef.of (T := ⟨S16x16, .f32⟩) main_call6_v5) (broadcastInDim S16x16 ![] bcast_S_S16x16),
    TRef.ternary (TRef.of (T := ⟨S16x16, .i1⟩) main_call6_v4) (TRef.of (T := ⟨S16x16, .f32⟩) main_call6_v5) (TRef.of (T := ⟨S16x16, .f32⟩) main_arg2) (TRef.of (T := ⟨S16x16, .f32⟩) main_v52) select,
    TRef.nullary (TRef.of (T := ⟨S16x16, .i32⟩) main_call7_v0) (iotaInDim S16x16 32 0),
    TRef.nullary (TRef.of (T := ⟨S_, .i32⟩) main_call7_c) (constantI S_ 32 0#32),
    TRef.unary (TRef.of (T := ⟨S_, .i32⟩) main_call7_c) (TRef.of (T := ⟨S16x16, .i32⟩) main_call7_v1) (broadcastInDim S16x16 ![] bcast_S_S16x16),
    TRef.binary (TRef.of (T := ⟨S16x16, .i32⟩) main_call7_v0) (TRef.of (T := ⟨S16x16, .i32⟩) main_call7_v1) (TRef.of (T := ⟨S16x16, .i32⟩) main_call7_v2) addi,
    TRef.nullary (TRef.of (T := ⟨S16x16, .i32⟩) main_call7_v3) (iotaInDim S16x16 32 1),
    TRef.binary (TRef.of (T := ⟨S16x16, .i32⟩) main_call7_v2) (TRef.of (T := ⟨S16x16, .i32⟩) main_call7_v3) (TRef.of (T := ⟨S16x16, .i1⟩) main_call7_v4) (cmpi .sge),
    TRef.nullary (TRef.of (T := ⟨S_, .f32⟩) main_call7_cst) (constant S_ .f32 0x00000000#32),
    TRef.unary (TRef.of (T := ⟨S_, .f32⟩) main_call7_cst) (TRef.of (T := ⟨S16x16, .f32⟩) main_call7_v5) (broadcastInDim S16x16 ![] bcast_S_S16x16),
    TRef.ternary (TRef.of (T := ⟨S16x16, .i1⟩) main_call7_v4) (TRef.of (T := ⟨S16x16, .f32⟩) main_call7_v5) (TRef.of (T := ⟨S16x16, .f32⟩) main_arg2) (TRef.of (T := ⟨S16x16, .f32⟩) main_v53) select,
    unary main_v53 main_v54 ((transpose S16x16 [1, 0] · transposes_S16x16_S16x16_1_0) : (⟨S16x16, .f32⟩ : BufTy).Contents (Elt F) → (⟨S16x16, .f32⟩ : BufTy).Contents (Elt F)),
    binary main_v52 main_v54 main_v55 (addf : (⟨S16x16, .f32⟩ : BufTy).Contents (Elt F) → (⟨S16x16, .f32⟩ : BufTy).Contents (Elt F) → (⟨S16x16, .f32⟩ : BufTy).Contents (Elt F)),
    reshape main_v55 main_v56 rfl shapeCasts_S16x16_S256,
    nullary main_c_9 (constantI S_ 32 16#32),
    unary main_c_9 main_v57 (broadcastInDim S3200000 ![] bcast_S_S3200000 : (⟨S_, .i32⟩ : BufTy).Contents (Elt F) → (⟨S3200000, .i32⟩ : BufTy).Contents (Elt F)),
    binary main_v10 main_v57 main_v58 (muli : (⟨S3200000, .i32⟩ : BufTy).Contents (Elt F) → (⟨S3200000, .i32⟩ : BufTy).Contents (Elt F) → (⟨S3200000, .i32⟩ : BufTy).Contents (Elt F)),
    binary main_v58 main_v19 main_v59 (addi : (⟨S3200000, .i32⟩ : BufTy).Contents (Elt F) → (⟨S3200000, .i32⟩ : BufTy).Contents (Elt F) → (⟨S3200000, .i32⟩ : BufTy).Contents (Elt F)),
    nullary main_c_10 (constantI S_ 32 0#32),
    unary main_c_10 main_v60 (broadcastInDim S3200000 ![] bcast_S_S3200000 : (⟨S_, .i32⟩ : BufTy).Contents (Elt F) → (⟨S3200000, .i32⟩ : BufTy).Contents (Elt F)),
    binary main_v59 main_v60 main_v61 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 256#32),
    unary main_c_11 main_v62 (broadcastInDim S3200000 ![] bcast_S_S3200000 : (⟨S_, .i32⟩ : BufTy).Contents (Elt F) → (⟨S3200000, .i32⟩ : BufTy).Contents (Elt F)),
    binary main_v59 main_v62 main_v63 (addi : (⟨S3200000, .i32⟩ : BufTy).Contents (Elt F) → (⟨S3200000, .i32⟩ : BufTy).Contents (Elt F) → (⟨S3200000, .i32⟩ : BufTy).Contents (Elt F)),
    ternary main_v61 main_v63 main_v59 main_v64 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v64 main_v65 (broadcastInDim S3200000x1 ![0] bcast_S3200000_S3200000x1_0 : (⟨S3200000, .i32⟩ : BufTy).Contents (Elt F) → (⟨S3200000x1, .i32⟩ : BufTy).Contents (Elt F)),
    binary main_v56 main_v65 main_v66 ((fun x i => Host.gather gather_S256_S3200000x1_S3200000_n_0_n_n_0_1_1 x i) : (⟨S256, .f32⟩ : BufTy).Contents (Elt F) → (⟨S3200000x1, .i32⟩ : BufTy).Contents (Elt F) → (⟨S3200000, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S3200000, .f32⟩) main_call8_v0) (broadcastInDim S3200000 ![] bcast_S_S3200000),
    TRef.binary (TRef.of (T := ⟨S3200000, .f32⟩) main_v66) (TRef.of (T := ⟨S3200000, .f32⟩) main_call8_v0) (TRef.of (T := ⟨S3200000, .f32⟩) main_v67) maximumf ]
theorem epsOps_sub : (epsOps : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., binary_bufs_sub .., reshape_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩

/-- The energy arithmetic and the per-atom sum. -/
abbrev sumOps : List (HloOp τ sig (Elt F)) :=
  [ binary main_arg3 main_v51 main_v68 (subf : (⟨S3200000, .f32⟩ : BufTy).Contents (Elt F) → (⟨S3200000, .f32⟩ : BufTy).Contents (Elt F) → (⟨S3200000, .f32⟩ : BufTy).Contents (Elt F)),
    binary main_v35 main_v68 main_v69 (Host.divf : (⟨S3200000, .f32⟩ : BufTy).Contents (Elt F) → (⟨S3200000, .f32⟩ : BufTy).Contents (Elt F) → (⟨S3200000, .f32⟩ : BufTy).Contents (Elt F)),
    nullary main_cst (constant S_ .f32 0x40C00000#32),
    unary main_cst main_v70 (broadcastInDim S3200000 ![] bcast_S_S3200000 : (⟨S_, .f32⟩ : BufTy).Contents (Elt F) → (⟨S3200000, .f32⟩ : BufTy).Contents (Elt F)),
    binary main_v69 main_v70 main_v71 (Host.powf : (⟨S3200000, .f32⟩ : BufTy).Contents (Elt F) → (⟨S3200000, .f32⟩ : BufTy).Contents (Elt F) → (⟨S3200000, .f32⟩ : BufTy).Contents (Elt F)),
    nullary main_cst_12 (constant S_ .f32 0x40000000#32),
    unary main_cst_12 main_v72 (broadcastInDim S3200000 ![] bcast_S_S3200000 : (⟨S_, .f32⟩ : BufTy).Contents (Elt F) → (⟨S3200000, .f32⟩ : BufTy).Contents (Elt F)),
    binary main_v72 main_v67 main_v73 (mulf : (⟨S3200000, .f32⟩ : BufTy).Contents (Elt F) → (⟨S3200000, .f32⟩ : BufTy).Contents (Elt F) → (⟨S3200000, .f32⟩ : BufTy).Contents (Elt F)),
    binary main_v71 main_v71 main_v74 (mulf : (⟨S3200000, .f32⟩ : BufTy).Contents (Elt F) → (⟨S3200000, .f32⟩ : BufTy).Contents (Elt F) → (⟨S3200000, .f32⟩ : BufTy).Contents (Elt F)),
    binary main_v74 main_v71 main_v75 (subf : (⟨S3200000, .f32⟩ : BufTy).Contents (Elt F) → (⟨S3200000, .f32⟩ : BufTy).Contents (Elt F) → (⟨S3200000, .f32⟩ : BufTy).Contents (Elt F)),
    binary main_v73 main_v75 main_v76 (mulf : (⟨S3200000, .f32⟩ : BufTy).Contents (Elt F) → (⟨S3200000, .f32⟩ : BufTy).Contents (Elt F) → (⟨S3200000, .f32⟩ : BufTy).Contents (Elt F)),
    binary main_v76 main_arg4 main_v77 (mulf : (⟨S3200000, .f32⟩ : BufTy).Contents (Elt F) → (⟨S3200000, .f32⟩ : BufTy).Contents (Elt F) → (⟨S3200000, .f32⟩ : BufTy).Contents (Elt F)),
    nullary main_cst_13 (constant S_ .f32 0x00000000#32),
    unary main_cst_13 main_v78 (broadcastInDim S100000 ![] bcast_S_S100000 : (⟨S_, .f32⟩ : BufTy).Contents (Elt F) → (⟨S100000, .f32⟩ : BufTy).Contents (Elt F)),
    unary main_v1 main_v79 (broadcastInDim S3200000x1 ![0] bcast_S3200000_S3200000x1_0 : (⟨S3200000, .i32⟩ : BufTy).Contents (Elt F) → (⟨S3200000x1, .i32⟩ : BufTy).Contents (Elt F)),
    ternary main_v78 main_v79 main_v77 main_v80 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    unary main_v80 main_v81 (broadcastInDim S100000x1 ![0] bcast_S100000_S100000x1_0 : (⟨S100000, .f32⟩ : BufTy).Contents (Elt F) → (⟨S100000x1, .f32⟩ : BufTy).Contents (Elt F)) ]
theorem sumOps_sub : (sumOps : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., unary_bufs_sub .., ternary_bufs_sub .., unary_bufs_sub ..⟩

/-- @main's operations, in order. -/
abbrev ops : List (HloOp τ sig (Elt F)) := idsOps ++ (sigOps ++ (dltOps ++ (epsOps ++ sumOps)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  rcases List.mem_append.mp h with h | h
  · exact List.forall_iff_forall_mem.mp idsOps_sub op h
  rcases List.mem_append.mp h with h | h
  · exact List.forall_iff_forall_mem.mp sigOps_sub op h
  rcases List.mem_append.mp h with h | h
  · exact List.forall_iff_forall_mem.mp dltOps_sub op h
  rcases List.mem_append.mp h with h | h
  · exact List.forall_iff_forall_mem.mp epsOps_sub op h
  · exact List.forall_iff_forall_mem.mp sumOps_sub op h

theorem ops_fresh : ∀ op ∈ (ops : List (HloOp τ sig (Elt F))), op.fresh = ∅ := by
  intro op h
  rcases List.mem_append.mp h with h | h
  · (repeat (cases h with | head => rfl | tail _ h => ?_)); exact nomatch h
  rcases List.mem_append.mp h with h | h
  · (repeat (cases h with | head => rfl | tail _ h => ?_)); exact nomatch h
  rcases List.mem_append.mp h with h | h
  · (repeat (cases h with | head => rfl | tail _ h => ?_)); exact nomatch h
  rcases List.mem_append.mp h with h | h
  · (repeat (cases h with | head => rfl | tail _ h => ?_)); exact nomatch h
  · (repeat (cases h with | head => rfl | tail _ h => ?_)); exact nomatch h

/-- Every weakly fair execution terminates with every buffer at the five stretches' results, in a row, over the launch
    contents. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after sumOps (after epsOps (after dltOps (after sigOps (after idsOps (launchContents m c))))) (Proc.devRef .tc b) :=
  (θ_run defs _ _).mono (fun _ h c b => (h c b).trans (by
      show after (idsOps ++ (sigOps ++ (dltOps ++ (epsOps ++ sumOps)))) _ _ = _
      rw [AfterAppend.after_append, AfterAppend.after_append, AfterAppend.after_append, AfterAppend.after_append]))
    (run_seq scopedRefs_eq scopedSems_eq defs main (fun _ => ops) main_eq (fun _ => ops_sub) m ρ (fun _ => ops_fresh))

/-! ## What each stretch writes, and what it leaves alone -/

/-- The centre endpoints of the edges. -/
theorem ids_center (W : Valuation τ sig (Elt F)) :
    (after idsOps (W) (Proc.devRef .tc main_v1) : IVec S3200000 32) = Cert.LJ.endpointIds ![0, 0] Facts₀.slices_S2x3200000_S1x3200000_0_0 Facts₀.shapeCasts_S1x3200000_S3200000 (W (Proc.devRef .tc main_arg5)) := by
  after_results <;> rfl

/-- The atom type of every edge's first endpoint. -/
theorem ids_type1 (W : Valuation τ sig (Elt F)) :
    (after idsOps (W) (Proc.devRef .tc main_v10) : IVec S3200000 32) = Cert.LJ.atomTypes gather_S100000_S3200000x1_S3200000_n_0_n_n_0_1_1 Facts₀.bcast_S_S3200000 Facts₀.bcast_S3200000_S3200000x1_0 (W (Proc.devRef .tc main_arg6)) (Cert.LJ.endpointIds ![0, 0] Facts₀.slices_S2x3200000_S1x3200000_0_0 Facts₀.shapeCasts_S1x3200000_S3200000 (W (Proc.devRef .tc main_arg5))) := by
  after_results <;> rfl

/-- The atom type of every edge's second endpoint. -/
theorem ids_type2 (W : Valuation τ sig (Elt F)) :
    (after idsOps (W) (Proc.devRef .tc main_v19) : IVec S3200000 32) = Cert.LJ.atomTypes gather_S100000_S3200000x1_S3200000_n_0_n_n_0_1_1 Facts₀.bcast_S_S3200000 Facts₀.bcast_S3200000_S3200000x1_0 (W (Proc.devRef .tc main_arg6)) (Cert.LJ.endpointIds ![1, 0] Facts₀.slices_S2x3200000_S1x3200000_1_0 Facts₀.shapeCasts_S1x3200000_S3200000 (W (Proc.devRef .tc main_arg5))) := by
  after_results <;> rfl

theorem ids_keeps_main_arg0 (W : Valuation τ sig (Elt F)) :
    after idsOps (W) (Proc.devRef .tc main_arg0) = W (Proc.devRef .tc main_arg0) := by
  after_results <;> rfl

theorem ids_keeps_main_arg1 (W : Valuation τ sig (Elt F)) :
    after idsOps (W) (Proc.devRef .tc main_arg1) = W (Proc.devRef .tc main_arg1) := by
  after_results <;> rfl

theorem ids_keeps_main_arg2 (W : Valuation τ sig (Elt F)) :
    after idsOps (W) (Proc.devRef .tc main_arg2) = W (Proc.devRef .tc main_arg2) := by
  after_results <;> rfl

theorem ids_keeps_main_arg3 (W : Valuation τ sig (Elt F)) :
    after idsOps (W) (Proc.devRef .tc main_arg3) = W (Proc.devRef .tc main_arg3) := by
  after_results <;> rfl

theorem ids_keeps_main_arg4 (W : Valuation τ sig (Elt F)) :
    after idsOps (W) (Proc.devRef .tc main_arg4) = W (Proc.devRef .tc main_arg4) := by
  after_results <;> rfl

/-! ## Writing or reading a helper's value through its buffer's typed reference is the identity -/

theorem rd_main_arg0 (p q s) (w : (main_arg0 : Ref sig .tc).ty.Contents (Elt F)) :
    ((TRef.of (sig := sig) (T := (⟨S16x16, .f32⟩ : BufTy)) main_arg0 p q s).ofBuf w : (⟨S16x16, .f32⟩ : BufTy).Contents (Elt F)) = (w : (⟨S16x16, .f32⟩ : BufTy).Contents (Elt F)) := rfl
theorem wr_main_v20 (p q s) (v : (⟨S16x16, .f32⟩ : BufTy).Contents (Elt F)) :
    ((TRef.of (sig := sig) (T := (⟨S16x16, .f32⟩ : BufTy)) main_v20 p q s).toBuf v : (⟨S16x16, .f32⟩ : BufTy).Contents (Elt F)) = v := rfl
theorem wr_main_v21 (p q s) (v : (⟨S16x16, .f32⟩ : BufTy).Contents (Elt F)) :
    ((TRef.of (sig := sig) (T := (⟨S16x16, .f32⟩ : BufTy)) main_v21 p q s).toBuf v : (⟨S16x16, .f32⟩ : BufTy).Contents (Elt F)) = v := rfl
theorem rd_main_v34 (p q s) (w : (main_v34 : Ref sig .tc).ty.Contents (Elt F)) :
    ((TRef.of (sig := sig) (T := (⟨S3200000, .f32⟩ : BufTy)) main_v34 p q s).ofBuf w : (⟨S3200000, .f32⟩ : BufTy).Contents (Elt F)) = (w : (⟨S3200000, .f32⟩ : BufTy).Contents (Elt F)) := rfl
theorem wr_main_v35 (p q s) (v : (⟨S3200000, .f32⟩ : BufTy).Contents (Elt F)) :
    ((TRef.of (sig := sig) (T := (⟨S3200000, .f32⟩ : BufTy)) main_v35 p q s).toBuf v : (⟨S3200000, .f32⟩ : BufTy).Contents (Elt F)) = v := rfl
theorem rd_main_arg1 (p q s) (w : (main_arg1 : Ref sig .tc).ty.Contents (Elt F)) :
    ((TRef.of (sig := sig) (T := (⟨S16x16, .f32⟩ : BufTy)) main_arg1 p q s).ofBuf w : (⟨S16x16, .f32⟩ : BufTy).Contents (Elt F)) = (w : (⟨S16x16, .f32⟩ : BufTy).Contents (Elt F)) := rfl
theorem wr_main_v36 (p q s) (v : (⟨S16x16, .f32⟩ : BufTy).Contents (Elt F)) :
    ((TRef.of (sig := sig) (T := (⟨S16x16, .f32⟩ : BufTy)) main_v36 p q s).toBuf v : (⟨S16x16, .f32⟩ : BufTy).Contents (Elt F)) = v := rfl
theorem wr_main_v37 (p q s) (v : (⟨S16x16, .f32⟩ : BufTy).Contents (Elt F)) :
    ((TRef.of (sig := sig) (T := (⟨S16x16, .f32⟩ : BufTy)) main_v37 p q s).toBuf v : (⟨S16x16, .f32⟩ : BufTy).Contents (Elt F)) = v := rfl
theorem rd_main_v50 (p q s) (w : (main_v50 : Ref sig .tc).ty.Contents (Elt F)) :
    ((TRef.of (sig := sig) (T := (⟨S3200000, .f32⟩ : BufTy)) main_v50 p q s).ofBuf w : (⟨S3200000, .f32⟩ : BufTy).Contents (Elt F)) = (w : (⟨S3200000, .f32⟩ : BufTy).Contents (Elt F)) := rfl
theorem wr_main_v51 (p q s) (v : (⟨S3200000, .f32⟩ : BufTy).Contents (Elt F)) :
    ((TRef.of (sig := sig) (T := (⟨S3200000, .f32⟩ : BufTy)) main_v51 p q s).toBuf v : (⟨S3200000, .f32⟩ : BufTy).Contents (Elt F)) = v := rfl
theorem rd_main_arg2 (p q s) (w : (main_arg2 : Ref sig .tc).ty.Contents (Elt F)) :
    ((TRef.of (sig := sig) (T := (⟨S16x16, .f32⟩ : BufTy)) main_arg2 p q s).ofBuf w : (⟨S16x16, .f32⟩ : BufTy).Contents (Elt F)) = (w : (⟨S16x16, .f32⟩ : BufTy).Contents (Elt F)) := rfl
theorem wr_main_v52 (p q s) (v : (⟨S16x16, .f32⟩ : BufTy).Contents (Elt F)) :
    ((TRef.of (sig := sig) (T := (⟨S16x16, .f32⟩ : BufTy)) main_v52 p q s).toBuf v : (⟨S16x16, .f32⟩ : BufTy).Contents (Elt F)) = v := rfl
theorem wr_main_v53 (p q s) (v : (⟨S16x16, .f32⟩ : BufTy).Contents (Elt F)) :
    ((TRef.of (sig := sig) (T := (⟨S16x16, .f32⟩ : BufTy)) main_v53 p q s).toBuf v : (⟨S16x16, .f32⟩ : BufTy).Contents (Elt F)) = v := rfl
theorem rd_main_v66 (p q s) (w : (main_v66 : Ref sig .tc).ty.Contents (Elt F)) :
    ((TRef.of (sig := sig) (T := (⟨S3200000, .f32⟩ : BufTy)) main_v66 p q s).ofBuf w : (⟨S3200000, .f32⟩ : BufTy).Contents (Elt F)) = (w : (⟨S3200000, .f32⟩ : BufTy).Contents (Elt F)) := rfl
theorem wr_main_v67 (p q s) (v : (⟨S3200000, .f32⟩ : BufTy).Contents (Elt F)) :
    ((TRef.of (sig := sig) (T := (⟨S3200000, .f32⟩ : BufTy)) main_v67 p q s).toBuf v : (⟨S3200000, .f32⟩ : BufTy).Contents (Elt F)) = v := rfl

set_option maxHeartbeats 4000000 in
/-- The per-edge pair parameter: the table's entry at the edge's pair of types, clipped at zero. -/
theorem sig_value (W : Valuation τ sig (Elt F)) :
    (after sigOps (W) (Proc.devRef .tc main_v35) : FVec F S3200000 .f32) = Cert.LJ.refPair gather_S256_S3200000x1_S3200000_n_0_n_n_0_1_1 Facts₀.bcast_S_S16x16 Facts₀.transposes_S16x16_S16x16_1_0 Facts₀.shapeCasts_S16x16_S256 Facts₀.bcast_S_S3200000 (W (Proc.devRef .tc main_arg0)) (Cert.LJ.pairColumn Facts₀.bcast_S_S3200000 Facts₀.bcast_S3200000_S3200000x1_0 (W (Proc.devRef .tc main_v10)) (W (Proc.devRef .tc main_v19))) := by
  after_results_simp
  simp only [TypedRefs.ofBuf_toBuf, rd_main_arg0, wr_main_v20, wr_main_v21, rd_main_v34, wr_main_v35] <;> rfl

theorem sig_keeps_main_v1 (W : Valuation τ sig (Elt F)) :
    after sigOps (W) (Proc.devRef .tc main_v1) = W (Proc.devRef .tc main_v1) := by
  after_results <;> rfl

theorem sig_keeps_main_v10 (W : Valuation τ sig (Elt F)) :
    after sigOps (W) (Proc.devRef .tc main_v10) = W (Proc.devRef .tc main_v10) := by
  after_results <;> rfl

theorem sig_keeps_main_v19 (W : Valuation τ sig (Elt F)) :
    after sigOps (W) (Proc.devRef .tc main_v19) = W (Proc.devRef .tc main_v19) := by
  after_results <;> rfl

theorem sig_keeps_main_arg1 (W : Valuation τ sig (Elt F)) :
    after sigOps (W) (Proc.devRef .tc main_arg1) = W (Proc.devRef .tc main_arg1) := by
  after_results <;> rfl

theorem sig_keeps_main_arg2 (W : Valuation τ sig (Elt F)) :
    after sigOps (W) (Proc.devRef .tc main_arg2) = W (Proc.devRef .tc main_arg2) := by
  after_results <;> rfl

theorem sig_keeps_main_arg3 (W : Valuation τ sig (Elt F)) :
    after sigOps (W) (Proc.devRef .tc main_arg3) = W (Proc.devRef .tc main_arg3) := by
  after_results <;> rfl

theorem sig_keeps_main_arg4 (W : Valuation τ sig (Elt F)) :
    after sigOps (W) (Proc.devRef .tc main_arg4) = W (Proc.devRef .tc main_arg4) := by
  after_results <;> rfl

set_option maxHeartbeats 4000000 in
/-- The per-edge pair parameter: the table's entry at the edge's pair of types, clipped at zero. -/
theorem dlt_value (W : Valuation τ sig (Elt F)) :
    (after dltOps (W) (Proc.devRef .tc main_v51) : FVec F S3200000 .f32) = Cert.LJ.refPair gather_S256_S3200000x1_S3200000_n_0_n_n_0_1_1 Facts₀.bcast_S_S16x16 Facts₀.transposes_S16x16_S16x16_1_0 Facts₀.shapeCasts_S16x16_S256 Facts₀.bcast_S_S3200000 (W (Proc.devRef .tc main_arg1)) (Cert.LJ.pairColumn Facts₀.bcast_S_S3200000 Facts₀.bcast_S3200000_S3200000x1_0 (W (Proc.devRef .tc main_v10)) (W (Proc.devRef .tc main_v19))) := by
  after_results_simp
  simp only [TypedRefs.ofBuf_toBuf, rd_main_arg1, wr_main_v36, wr_main_v37, rd_main_v50, wr_main_v51] <;> rfl

theorem dlt_keeps_main_v1 (W : Valuation τ sig (Elt F)) :
    after dltOps (W) (Proc.devRef .tc main_v1) = W (Proc.devRef .tc main_v1) := by
  after_results <;> rfl

theorem dlt_keeps_main_v10 (W : Valuation τ sig (Elt F)) :
    after dltOps (W) (Proc.devRef .tc main_v10) = W (Proc.devRef .tc main_v10) := by
  after_results <;> rfl

theorem dlt_keeps_main_v19 (W : Valuation τ sig (Elt F)) :
    after dltOps (W) (Proc.devRef .tc main_v19) = W (Proc.devRef .tc main_v19) := by
  after_results <;> rfl

theorem dlt_keeps_main_v35 (W : Valuation τ sig (Elt F)) :
    after dltOps (W) (Proc.devRef .tc main_v35) = W (Proc.devRef .tc main_v35) := by
  after_results <;> rfl

theorem dlt_keeps_main_arg2 (W : Valuation τ sig (Elt F)) :
    after dltOps (W) (Proc.devRef .tc main_arg2) = W (Proc.devRef .tc main_arg2) := by
  after_results <;> rfl

theorem dlt_keeps_main_arg3 (W : Valuation τ sig (Elt F)) :
    after dltOps (W) (Proc.devRef .tc main_arg3) = W (Proc.devRef .tc main_arg3) := by
  after_results <;> rfl

theorem dlt_keeps_main_arg4 (W : Valuation τ sig (Elt F)) :
    after dltOps (W) (Proc.devRef .tc main_arg4) = W (Proc.devRef .tc main_arg4) := by
  after_results <;> rfl

set_option maxHeartbeats 4000000 in
/-- The per-edge pair parameter: the table's entry at the edge's pair of types, clipped at zero. -/
theorem eps_value (W : Valuation τ sig (Elt F)) :
    (after epsOps (W) (Proc.devRef .tc main_v67) : FVec F S3200000 .f32) = Cert.LJ.refPair gather_S256_S3200000x1_S3200000_n_0_n_n_0_1_1 Facts₀.bcast_S_S16x16 Facts₀.transposes_S16x16_S16x16_1_0 Facts₀.shapeCasts_S16x16_S256 Facts₀.bcast_S_S3200000 (W (Proc.devRef .tc main_arg2)) (Cert.LJ.pairColumn Facts₀.bcast_S_S3200000 Facts₀.bcast_S3200000_S3200000x1_0 (W (Proc.devRef .tc main_v10)) (W (Proc.devRef .tc main_v19))) := by
  after_results_simp
  simp only [TypedRefs.ofBuf_toBuf, rd_main_arg2, wr_main_v52, wr_main_v53, rd_main_v66, wr_main_v67] <;> rfl

theorem eps_keeps_main_v1 (W : Valuation τ sig (Elt F)) :
    after epsOps (W) (Proc.devRef .tc main_v1) = W (Proc.devRef .tc main_v1) := by
  after_results <;> rfl

theorem eps_keeps_main_v35 (W : Valuation τ sig (Elt F)) :
    after epsOps (W) (Proc.devRef .tc main_v35) = W (Proc.devRef .tc main_v35) := by
  after_results <;> rfl

theorem eps_keeps_main_v51 (W : Valuation τ sig (Elt F)) :
    after epsOps (W) (Proc.devRef .tc main_v51) = W (Proc.devRef .tc main_v51) := by
  after_results <;> rfl

theorem eps_keeps_main_arg3 (W : Valuation τ sig (Elt F)) :
    after epsOps (W) (Proc.devRef .tc main_arg3) = W (Proc.devRef .tc main_arg3) := by
  after_results <;> rfl

theorem eps_keeps_main_arg4 (W : Valuation τ sig (Elt F)) :
    after epsOps (W) (Proc.devRef .tc main_arg4) = W (Proc.devRef .tc main_arg4) := by
  after_results <;> rfl

/-- The result: the per-atom sums of the per-edge energies. -/
theorem sum_value (W : Valuation τ sig (Elt F)) :
    (after sumOps (W) (Proc.devRef .tc main_v81) : FVec F S100000x1 .f32) = Cert.LJ.atomSums scatter_S100000_S3200000x1_S3200000_n_0_0_1 Facts₀.bcast_S_S100000 Facts₀.bcast_S100000_S100000x1_0 Facts₀.bcast_S3200000_S3200000x1_0 (W (Proc.devRef .tc main_v1)) (Cert.LJ.refEnergies Facts₀.bcast_S_S3200000 (W (Proc.devRef .tc main_v35)) (W (Proc.devRef .tc main_v51)) (W (Proc.devRef .tc main_v67)) (W (Proc.devRef .tc main_arg3)) (W (Proc.devRef .tc main_arg4))) := by
  after_results <;> rfl

/-! ## The arguments are left alone by the whole line -/

theorem keeps_main_arg0 (W : Valuation τ sig (Elt F)) :
    after sumOps (after epsOps (after dltOps (after sigOps (after idsOps (W))))) (Proc.devRef .tc main_arg0) = W (Proc.devRef .tc main_arg0) := by
  after_results_simp <;> rfl

theorem keeps_main_arg1 (W : Valuation τ sig (Elt F)) :
    after sumOps (after epsOps (after dltOps (after sigOps (after idsOps (W))))) (Proc.devRef .tc main_arg1) = W (Proc.devRef .tc main_arg1) := by
  after_results_simp <;> rfl

theorem keeps_main_arg2 (W : Valuation τ sig (Elt F)) :
    after sumOps (after epsOps (after dltOps (after sigOps (after idsOps (W))))) (Proc.devRef .tc main_arg2) = W (Proc.devRef .tc main_arg2) := by
  after_results_simp <;> rfl

theorem keeps_main_arg3 (W : Valuation τ sig (Elt F)) :
    after sumOps (after epsOps (after dltOps (after sigOps (after idsOps (W))))) (Proc.devRef .tc main_arg3) = W (Proc.devRef .tc main_arg3) := by
  after_results_simp <;> rfl

theorem keeps_main_arg4 (W : Valuation τ sig (Elt F)) :
    after sumOps (after epsOps (after dltOps (after sigOps (after idsOps (W))))) (Proc.devRef .tc main_arg4) = W (Proc.devRef .tc main_arg4) := by
  after_results_simp <;> rfl

theorem keeps_main_arg5 (W : Valuation τ sig (Elt F)) :
    after sumOps (after epsOps (after dltOps (after sigOps (after idsOps (W))))) (Proc.devRef .tc main_arg5) = W (Proc.devRef .tc main_arg5) := by
  after_results_simp <;> rfl

theorem keeps_main_arg6 (W : Valuation τ sig (Elt F)) :
    after sumOps (after epsOps (after dltOps (after sigOps (after idsOps (W))))) (Proc.devRef .tc main_arg6) = W (Proc.devRef .tc main_arg6) := by
  after_results_simp <;> rfl

end Cert.ReferenceIdeal.HandRun

end
-- ==== Proof.RefValue.lean ====
/-
  The reference program's result as a function of its arguments: the per-atom sums of the per-edge energies, the pair
  parameters taken from the tables and then clipped, the sixth power by the power function.
-/
import proofs.«166587_j50697793962073_1_alg».proof.Proof.RefRun
import Idealize.ShloMosaic.PureOps.Ideal

set_option maxRecDepth 16384

noncomputable section

namespace Cert.ReferenceIdeal.HandRun

open Cert.ReferenceIdeal Cert.ReferenceIdeal.Gen
open Idealize.ShloMosaic Idealize.ShloMosaic.TcCoe Idealize.SL.Sem Idealize.ShloMosaic.StableHlo

/-- Every edge's flat table position, from the endpoint and type arrays. -/
def pairCol (x5 : IVec S2x3200000 32) (x6 : IVec S100000 32) : IVec S3200000x1 32 :=
  Cert.LJ.pairColumn Facts₀.bcast_S_S3200000 Facts₀.bcast_S3200000_S3200000x1_0 (Cert.LJ.atomTypes gather_S100000_S3200000x1_S3200000_n_0_n_n_0_1_1 Facts₀.bcast_S_S3200000 Facts₀.bcast_S3200000_S3200000x1_0 x6 (Cert.LJ.endpointIds ![0, 0] Facts₀.slices_S2x3200000_S1x3200000_0_0 Facts₀.shapeCasts_S1x3200000_S3200000 x5)) (Cert.LJ.atomTypes gather_S100000_S3200000x1_S3200000_n_0_n_n_0_1_1 Facts₀.bcast_S_S3200000 Facts₀.bcast_S3200000_S3200000x1_0 x6 (Cert.LJ.endpointIds ![1, 0] Facts₀.slices_S2x3200000_S1x3200000_1_0 Facts₀.shapeCasts_S1x3200000_S3200000 x5))

/-- The program's result as a function of the seven argument arrays. -/
def resultOf (x0 x1 x2 : FVec Ideal S16x16 .f32) (x3 x4 : FVec Ideal S3200000 .f32) (x5 : IVec S2x3200000 32) (x6 : IVec S100000 32) : FVec Ideal S100000x1 .f32 :=
  Cert.LJ.atomSums scatter_S100000_S3200000x1_S3200000_n_0_0_1 Facts₀.bcast_S_S100000 Facts₀.bcast_S100000_S100000x1_0
    Facts₀.bcast_S3200000_S3200000x1_0 (Cert.LJ.endpointIds ![0, 0] Facts₀.slices_S2x3200000_S1x3200000_0_0 Facts₀.shapeCasts_S1x3200000_S3200000 x5)
    (Cert.LJ.refEnergies Facts₀.bcast_S_S3200000 (Cert.LJ.refPair gather_S256_S3200000x1_S3200000_n_0_n_n_0_1_1 Facts₀.bcast_S_S16x16 Facts₀.transposes_S16x16_S16x16_1_0 Facts₀.shapeCasts_S16x16_S256 Facts₀.bcast_S_S3200000 x0 (pairCol x5 x6)) (Cert.LJ.refPair gather_S256_S3200000x1_S3200000_n_0_n_n_0_1_1 Facts₀.bcast_S_S16x16 Facts₀.transposes_S16x16_S16x16_1_0 Facts₀.shapeCasts_S16x16_S256 Facts₀.bcast_S_S3200000 x1 (pairCol x5 x6)) (Cert.LJ.refPair gather_S256_S3200000x1_S3200000_n_0_n_n_0_1_1 Facts₀.bcast_S_S16x16 Facts₀.transposes_S16x16_S16x16_1_0 Facts₀.shapeCasts_S16x16_S256 Facts₀.bcast_S_S3200000 x2 (pairCol x5 x6)) x3 x4)

variable (m : (ℓ : Loc nD τ sig) → Buf (Elt Ideal) ℓ)

/-- The result buffer after the five stretches is `resultOf` of the launch contents of the arguments. -/
theorem result_eq (c : Dev nD) :
    (after sumOps (after epsOps (after dltOps (after sigOps (after idsOps ((launchContents m c)))))) (Proc.devRef .tc main_v81) : FVec Ideal S100000x1 .f32) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [sum_value, eps_keeps_main_v1, dlt_keeps_main_v1, sig_keeps_main_v1, ids_center,
    eps_keeps_main_v35, dlt_keeps_main_v35, sig_value, ids_keeps_main_arg0, ids_type1, ids_type2,
    eps_keeps_main_v51, dlt_value, sig_keeps_main_arg1, sig_keeps_main_v10, sig_keeps_main_v19, ids_keeps_main_arg1,
    ids_type1, ids_type2,
    eps_value, dlt_keeps_main_arg2, dlt_keeps_main_v10, dlt_keeps_main_v19, sig_keeps_main_arg2, sig_keeps_main_v10,
    sig_keeps_main_v19, ids_keeps_main_arg2, ids_type1, ids_type2,
    eps_keeps_main_arg3, dlt_keeps_main_arg3, sig_keeps_main_arg3, ids_keeps_main_arg3,
    eps_keeps_main_arg4, dlt_keeps_main_arg4, sig_keeps_main_arg4, ids_keeps_main_arg4]
  rfl

end Cert.ReferenceIdeal.HandRun

end
-- ==== Proof.LJArrays.lean ====
/-
  The per-edge arrays of the Lennard-Jones sum.

  A pair parameter of an edge is an entry of a 16×16 table, flattened to 256 entries and taken at the edge's flat type
  index, then clipped below at zero. Clipping the table first and taking the entry afterwards gives the same number,
  since taking an entry reads one position of the table. If the table's entries are real numbers, so is every pair
  parameter; then the energy of an edge formed with products (the kernel's) is the energy formed with the power function
  (the reference's) on every edge where the quotient is not `0 / 0`. The kernel works on the per-edge arrays re-laid as
  25000×128 and lays its result back flat: laying out and back is the identity, and commutes with anything entrywise.
-/
import Idealize.ShloMosaic.Lib.ValueIdx
import Idealize.ShloMosaic.Lib.Pipeline.Value
import Idealize.ShloMosaic.PureOps.Ideal.Laws
import proofs.«166587_j50697793962073_1_alg».proof.Proof.LJScalar

noncomputable section

namespace Cert.LJ

open Idealize.ShloMosaic Idealize.ShloMosaic.ValueIdx

/-- Every entry of the array is a real number. -/
def AllReal {s : Shape} (x : FVec Ideal s .f32) : Prop := ∀ i, ∃ r : ℝ, (x i : EReal) = (r : EReal)

section Closure
variable {s t : Shape}

theorem AllReal.shapeCast {x : FVec Ideal s .f32} (hx : AllReal x) (h : s.ShapeCasts t) :
    AllReal (shapeCast t x h : FVec Ideal t .f32) := fun j => by
  unfold Idealize.ShloMosaic.shapeCast; exact hx _

theorem AllReal.transpose {x : FVec Ideal s .f32} (hx : AllReal x) (perm : List (Fin s.rank)) (h : s.Transposes perm t) :
    AllReal (transpose t perm x h : FVec Ideal t .f32) := fun j => by
  unfold Idealize.ShloMosaic.transpose; exact hx _

theorem AllReal.select {a b : FVec Ideal s .f32} (ha : AllReal a) (hb : AllReal b) (c : IVec s 1) :
    AllReal (select c a b : FVec Ideal s .f32) := fun i => by
  rw [select_apply]
  unfold Scalar.select
  split
  · exact ha i
  · exact hb i

theorem AllReal.addf {a b : FVec Ideal s .f32} (ha : AllReal a) (hb : AllReal b) : AllReal (addf a b) := fun i => by
  obtain ⟨r, hr⟩ := ha i
  obtain ⟨q, hq⟩ := hb i
  exact ⟨r + q, by rw [addf_apply, hr, hq, EReal.coe_add]⟩

theorem AllReal.gather {si : Shape} {w : Nat} {x : FVec Ideal s .f32} (hx : AllReal x) (d : GatherDims s si t) (idx : IVec si w) :
    AllReal (Host.gather d x idx : FVec Ideal t .f32) := fun o => by
  unfold Host.gather; exact hx _

/-- A scalar constant repeated over a shape reads the constant everywhere. -/
theorem splat_apply (h : (⟨0, ![]⟩ : Shape).BroadcastsInDim t (![] : Fin 0 → Fin t.rank)) (b : BitVec 32) (j : t.Idx) :
    (broadcastInDim t ![] h (constant (F := Ideal) ⟨0, ![]⟩ .f32 b) j : EReal) = Ideal.ofBits .f32 b := by
  unfold broadcastInDim
  rw [constant_apply]

theorem zeros_apply (h : (⟨0, ![]⟩ : Shape).BroadcastsInDim t (![] : Fin 0 → Fin t.rank)) (j : t.Idx) :
    (broadcastInDim t ![] h (constant (F := Ideal) ⟨0, ![]⟩ .f32 0x00000000#32) j : EReal) = 0 := by
  rw [splat_apply, Ideal.ofBits_zero_f32]

theorem AllReal.zeros (h : (⟨0, ![]⟩ : Shape).BroadcastsInDim t (![] : Fin 0 → Fin t.rank)) :
    AllReal (broadcastInDim t ![] h (constant (F := Ideal) ⟨0, ![]⟩ .f32 0x00000000#32)) := fun j =>
  ⟨0, by rw [zeros_apply, EReal.coe_zero]⟩

end Closure

/-- The symmetrized table of a parameter matrix: one masked copy plus the transpose of another masked copy, whatever
    the masks; its entries are real when the matrix's are. -/
theorem symTable_allReal {T : Shape} {p z : FVec Ideal T .f32} (hp : AllReal p) (hz : AllReal z) (c1 c2 : IVec T 1)
    (perm : List (Fin T.rank)) (h : T.Transposes perm T) :
    AllReal (addf (select c1 z p) (transpose T perm (select c2 z p) h)) :=
  (hz.select hp c1).addf ((hz.select hp c2).transpose perm h)

section Edges
variable {T TF EC E B : Shape}

/-- Clipping the table at zero and then taking an edge's entry is taking the entry and then clipping. -/
theorem gather_clip (hf : T.ShapeCasts TF) (g : GatherDims TF EC E) (sym zT : FVec Ideal T .f32) (col : IVec EC 32)
    (hz : ∀ k, (zT k : EReal) = 0) (e : E.Idx) :
    (Host.gather g (shapeCast TF (maximumf sym zT) hf) col e : EReal)
      = max (Host.gather g (shapeCast TF sym hf) col e : EReal) 0 := by
  unfold Host.gather Idealize.ShloMosaic.shapeCast
  rw [maximumf_apply, hz]

/-- The reference's per-edge energies over abstract tables and index column. -/
def refEdges (hf : T.ShapeCasts TF) (g : GatherDims TF EC E) (symS symD symE : FVec Ideal T .f32) (col : IVec EC 32)
    (zE two six len cut : FVec Ideal E .f32) : FVec Ideal E .f32 :=
  mulf (mulf (mulf two (maximumf (Host.gather g (shapeCast TF symE hf) col) zE))
    (subf (mulf
        (Host.powf (Host.divf (maximumf (Host.gather g (shapeCast TF symS hf) col) zE)
          (subf len (maximumf (Host.gather g (shapeCast TF symD hf) col) zE))) six)
        (Host.powf (Host.divf (maximumf (Host.gather g (shapeCast TF symS hf) col) zE)
          (subf len (maximumf (Host.gather g (shapeCast TF symD hf) col) zE))) six))
      (Host.powf (Host.divf (maximumf (Host.gather g (shapeCast TF symS hf) col) zE)
          (subf len (maximumf (Host.gather g (shapeCast TF symD hf) col) zE))) six))) cut

/-- The kernel's per-edge energies, formed on the arrays re-laid as `B` and laid back flat, are the reference's:
    on every edge where `sig ≠ 0` or `len ≠ dlt` (`hpre`), given real tables and real lengths. -/
theorem edges_agree (hf : T.ShapeCasts TF) (g : GatherDims TF EC E) (heb : E.ShapeCasts B) (hbe : B.ShapeCasts E)
    (symS symD symE zT : FVec Ideal T .f32) (col : IVec EC 32) (zE two six len cut : FVec Ideal E .f32) (twoS : EReal)
    (hzT : ∀ k, (zT k : EReal) = 0) (hzE : ∀ e, (zE e : EReal) = 0) (htwo : ∀ e, (two e : EReal) = twoS)
    (hsix : ∀ e, (six e : EReal) = Ideal.ofBits .f32 0x40C00000#32)
    (hS : AllReal symS) (hD : AllReal symD) (hL : AllReal len)
    (hpre : ∀ e, (maximumf (Host.gather g (shapeCast TF symS hf) col) zE e : EReal) ≠ 0
      ∨ (len e : EReal) ≠ (maximumf (Host.gather g (shapeCast TF symD hf) col) zE e : EReal)) :
    shapeCast E (fun i : B.Idx =>
        kerEdge twoS
          (shapeCast B (Host.gather g (shapeCast TF (maximumf symS zT) hf) col) heb i)
          (shapeCast B (Host.gather g (shapeCast TF (maximumf symD zT) hf) col) heb i)
          (shapeCast B (Host.gather g (shapeCast TF (maximumf symE zT) hf) col) heb i)
          (shapeCast B len heb i) (shapeCast B cut heb i)) hbe
      = refEdges hf g symS symD symE col zE two six len cut := by
  funext e
  have back : ∀ a : FVec Ideal E .f32, (shapeCast E (shapeCast B a heb) hbe) e = a e :=
    fun a => congrFun (shapeCast_shapeCast a heb hbe) e
  have step : (shapeCast E (fun i : B.Idx =>
        kerEdge twoS
          (shapeCast B (Host.gather g (shapeCast TF (maximumf symS zT) hf) col) heb i)
          (shapeCast B (Host.gather g (shapeCast TF (maximumf symD zT) hf) col) heb i)
          (shapeCast B (Host.gather g (shapeCast TF (maximumf symE zT) hf) col) heb i)
          (shapeCast B len heb i) (shapeCast B cut heb i)) hbe) e
      = kerEdge twoS
          ((shapeCast E (shapeCast B (Host.gather g (shapeCast TF (maximumf symS zT) hf) col) heb) hbe) e)
          ((shapeCast E (shapeCast B (Host.gather g (shapeCast TF (maximumf symD zT) hf) col) heb) hbe) e)
          ((shapeCast E (shapeCast B (Host.gather g (shapeCast TF (maximumf symE zT) hf) col) heb) hbe) e)
          ((shapeCast E (shapeCast B len heb) hbe) e) ((shapeCast E (shapeCast B cut heb) hbe) e) := rfl
  rw [step, back, back, back, back, back, gather_clip hf g symS zT col hzT, gather_clip hf g symD zT col hzT,
    gather_clip hf g symE zT col hzT]
  obtain ⟨a, ha⟩ := (hS.shapeCast hf).gather g col e
  obtain ⟨b, hb⟩ := (hD.shapeCast hf).gather g col e
  obtain ⟨l, hl⟩ := hL e
  have hp := hpre e
  rw [maximumf_apply, maximumf_apply, hzE, ha, hb, hl] at hp
  show _ = refEdge (two e) (six e) (max (Host.gather g (shapeCast TF symS hf) col e : EReal) (zE e))
      (max (Host.gather g (shapeCast TF symD hf) col e : EReal) (zE e))
      (max (Host.gather g (shapeCast TF symE hf) col e : EReal) (zE e)) (len e) (cut e)
  rw [hzE, htwo, hsix, ha, hb, hl]
  exact edge_energy a b l twoS _ _ hp

end Edges

end Cert.LJ

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.PreRead.lean ====
/-
  What the precondition says, entry by entry.

  It is the conjunction of five "every entry's absolute value is below +∞" tests — one per float argument — and one test
  over the edges: on every edge, `sig ≠ 0` or `len ≠ dlt`, with `sig` and `dlt` the pair parameters as the reference
  forms them. A reduce by `and` that ends at 1 had a 1 at every index; an absolute value below +∞ is a real number; an
  `or` of two "not equal" tests that is 1 has one of them true.
-/
import proofs.«166587_j50697793962073_1_alg».proof.Defs
import proofs.«166587_j50697793962073_1_alg».proof.Proof.Gen.Pre_finite_inputs
import proofs.«166587_j50697793962073_1_alg».proof.Proof.LJHost
import proofs.«166587_j50697793962073_1_alg».proof.Proof.LJArrays
import proofs.«166587_j50697793962073_1_alg».proof.Proof.LibFiniteEntry
import Idealize.ShloMosaic.Lib.ReduceAll
import Idealize.ShloMosaic.Lib.Affine
import Idealize.ShloMosaic.Lib.ValueIdx

set_option maxRecDepth 16384

noncomputable section

namespace Cert.Pre_finite_inputs.Decode

open Cert.Pre_finite_inputs Idealize.ShloMosaic

/-- The "all entries finite" test of a 16×16 argument. -/
def finiteT (x : FVec Ideal S16x16 .f32) : IVec S_ 1 :=
  Host.reduce IntOp.andi (cmpf .olt (Host.absf x) (broadcastInDim S16x16 ![] Facts.bcast_S_S16x16 (constant S_ .f32 0x7F800000#32)))
    (constantI S_ 1 1#1) Facts.reducesTo_S16x16_S_d0_1 Facts.h_S_

/-- The "all entries finite" test of a per-edge argument. -/
def finiteE (x : FVec Ideal S3200000 .f32) : IVec S_ 1 :=
  Host.reduce IntOp.andi (cmpf .olt (Host.absf x) (broadcastInDim S3200000 ![] Facts.bcast_S_S3200000 (constant S_ .f32 0x7F800000#32)))
    (constantI S_ 1 1#1) Facts.reducesTo_S3200000_S_d0 Facts.h_S_

/-- Every edge's flat table position, from the endpoint and type arrays. -/
def pairCol (x5 : IVec S2x3200000 32) (x6 : IVec S100000 32) : IVec S3200000x1 32 :=
  Cert.LJ.pairColumn Facts.bcast_S_S3200000 Facts.bcast_S3200000_S3200000x1_0 (Cert.LJ.atomTypes gather_S100000_S3200000x1_S3200000_n_0_n_n_0_1_1 Facts.bcast_S_S3200000 Facts.bcast_S3200000_S3200000x1_0 x6 (Cert.LJ.endpointIds ![0, 0] Facts.slices_S2x3200000_S1x3200000_0_0 Facts.shapeCasts_S1x3200000_S3200000 x5)) (Cert.LJ.atomTypes gather_S100000_S3200000x1_S3200000_n_0_n_n_0_1_1 Facts.bcast_S_S3200000 Facts.bcast_S3200000_S3200000x1_0 x6 (Cert.LJ.endpointIds ![1, 0] Facts.slices_S2x3200000_S1x3200000_1_0 Facts.shapeCasts_S1x3200000_S3200000 x5))

/-- The test over the edges: `sig ≠ 0` or `len ≠ dlt`, on every edge. -/
def domainE (x0 x1 : FVec Ideal S16x16 .f32) (x3 : FVec Ideal S3200000 .f32) (x5 : IVec S2x3200000 32) (x6 : IVec S100000 32) :
    IVec S_ 1 :=
  Host.reduce IntOp.andi
    (ori (cmpf .une (Cert.LJ.refPair gather_S256_S3200000x1_S3200000_n_0_n_n_0_1_1 Facts.bcast_S_S16x16 Facts.transposes_S16x16_S16x16_1_0 Facts.shapeCasts_S16x16_S256 Facts.bcast_S_S3200000 x0 (pairCol x5 x6)) (broadcastInDim S3200000 ![] Facts.bcast_S_S3200000 (constant S_ .f32 0x00000000#32)))
      (cmpf .une x3 (Cert.LJ.refPair gather_S256_S3200000x1_S3200000_n_0_n_n_0_1_1 Facts.bcast_S_S16x16 Facts.transposes_S16x16_S16x16_1_0 Facts.shapeCasts_S16x16_S256 Facts.bcast_S_S3200000 x1 (pairCol x5 x6))))
    (constantI S_ 1 1#1) Facts.reducesTo_S3200000_S_d0 Facts.h_S_

/-- The printed predicate is the conjunction of the six tests. -/
theorem fn_eq (x0 x1 x2 : FVec Ideal S16x16 .f32) (x3 x4 : FVec Ideal S3200000 .f32) (x5 : IVec S2x3200000 32)
    (x6 : IVec S100000 32) :
    fn (F := Ideal) x0 x1 x2 x3 x4 x5 x6
      = andi (andi (andi (andi (andi (finiteT x0) (finiteT x1)) (finiteT x2)) (finiteE x3)) (finiteE x4))
          (domainE x0 x1 x3 x5 x6) := rfl

/-- "Not equal" as a test answers 1 only on different numbers. -/
theorem ne_of_une (a b : EReal) (h : FloatOps.cmpf (F := Ideal) (φ := .f32) .une a b = 1#1) : a ≠ b := by
  intro hab
  rw [Ideal.cmpf_def] at h
  simp [Ideal.cmp, hab] at h

/-- Over any four per-edge arrays: if "`r ≠ z` or `l ≠ d`" tests 1 at edge `e` and `z` is zero there, then `r e ≠ 0` or
    `l e ≠ d e`. -/
theorem edge_test (r z l d : FVec Ideal S3200000 .f32) (e : S3200000.Idx) (hz : (z e : EReal) = 0)
    (h : ori (cmpf .une r z) (cmpf .une l d) e = 1#1) : (r e : EReal) ≠ 0 ∨ (l e : EReal) ≠ (d e : EReal) := by
  rcases IntOp.ori_eq_one.mp h with hs | hd
  · exact Or.inl (fun h0 => ne_of_une _ _ hs (h0.trans hz.symm))
  · exact Or.inr (ne_of_une _ _ hd)

/-- An all-finite test that is 1 says every entry is a real number. -/
theorem allReal_of_finiteT (x : FVec Ideal S16x16 .f32) (i0 : S_.Idx) (h : finiteT x i0 = 1#1) : Cert.LJ.AllReal x := fun i =>
  Cert.FiniteEntry.real_of_abs_lt_top (x i)
    (Host.reduce_andi_all _ _ Facts.reducesTo_S16x16_S_d0_1 Facts.h_S_ i0 h i)

theorem allReal_of_finiteE (x : FVec Ideal S3200000 .f32) (i0 : S_.Idx) (h : finiteE x i0 = 1#1) : Cert.LJ.AllReal x := fun i =>
  Cert.FiniteEntry.real_of_abs_lt_top (x i)
    (Host.reduce_andi_all _ _ Facts.reducesTo_S3200000_S_d0 Facts.h_S_ i0 h i)

/-- The precondition, read: the tables of sig and dlt and the lengths are real, and no edge has `sig = 0` and
    `len = dlt` at once. -/
theorem read (x0 x1 x2 : FVec Ideal S16x16 .f32) (x3 x4 : FVec Ideal S3200000 .f32) (x5 : IVec S2x3200000 32)
    (x6 : IVec S100000 32) (h : fn (F := Ideal) x0 x1 x2 x3 x4 x5 x6 = fun _ => 1#1) :
    Cert.LJ.AllReal x0 ∧ Cert.LJ.AllReal x1 ∧ Cert.LJ.AllReal x3
      ∧ ∀ e : S3200000.Idx, (Cert.LJ.refPair gather_S256_S3200000x1_S3200000_n_0_n_n_0_1_1 Facts.bcast_S_S16x16 Facts.transposes_S16x16_S16x16_1_0 Facts.shapeCasts_S16x16_S256 Facts.bcast_S_S3200000 x0 (pairCol x5 x6) e : EReal) ≠ 0 ∨ (x3 e : EReal) ≠ (Cert.LJ.refPair gather_S256_S3200000x1_S3200000_n_0_n_n_0_1_1 Facts.bcast_S_S16x16 Facts.transposes_S16x16_S16x16_1_0 Facts.shapeCasts_S16x16_S256 Facts.bcast_S_S3200000 x1 (pairCol x5 x6) e : EReal) := by
  have h0 := congrFun h ValueIdx.ix0
  rw [fn_eq] at h0
  obtain ⟨h1, hD⟩ := IntOp.andi_eq_one.mp h0
  obtain ⟨h2, h4⟩ := IntOp.andi_eq_one.mp h1
  obtain ⟨h3, hL⟩ := IntOp.andi_eq_one.mp h2
  obtain ⟨h5, hE⟩ := IntOp.andi_eq_one.mp h3
  obtain ⟨hS, hDl⟩ := IntOp.andi_eq_one.mp h5
  refine ⟨allReal_of_finiteT x0 _ hS, allReal_of_finiteT x1 _ hDl, allReal_of_finiteE x3 _ hL, fun e => ?_⟩
  have he := Host.reduce_andi_all _ _ Facts.reducesTo_S3200000_S_d0 Facts.h_S_ ValueIdx.ix0 hD e
  exact edge_test _ _ _ _ e (Cert.LJ.zeros_apply Facts.bcast_S_S3200000 e) he

end Cert.Pre_finite_inputs.Decode

end
-- ==== Proof.Bridge.lean ====
/-
  The two results are one function of the arguments, under the precondition.

  Both programs end with the per-atom sums of a per-edge energy array over the same centre endpoints; the two energy
  arrays agree edge by edge: the pair parameters are the same numbers (clipping commutes with taking a table entry), and
  the sixth power by products is the power function's wherever the quotient is not `0 / 0`, which the precondition
  excludes on every edge; the tables and lengths are real because the float arguments are finite.
-/
import proofs.«166587_j50697793962073_1_alg».proof.Proof.KernelValue
import proofs.«166587_j50697793962073_1_alg».proof.Proof.RefValue
import proofs.«166587_j50697793962073_1_alg».proof.Proof.PreRead
import proofs.«166587_j50697793962073_1_alg».proof.Proof.LJArrays

set_option maxRecDepth 16384

noncomputable section

namespace Cert.Proof.Bridge

open Idealize.ShloMosaic

theorem results_agree (x0 x1 x2 : FVec Ideal Cert.LJ.T .f32) (x3 x4 : FVec Ideal Cert.LJ.E .f32) (x5 : IVec Cert.LJ.E2 32)
    (x6 : IVec Cert.LJ.A 32) (h : Cert.Pre_finite_inputs.fn (F := Ideal) x0 x1 x2 x3 x4 x5 x6 = fun _ => 1#1) :
    Cert.KernelIdeal.Value.resultOf x0 x1 x2 x3 x4 x5 x6 = Cert.ReferenceIdeal.HandRun.resultOf x0 x1 x2 x3 x4 x5 x6 := by
  obtain ⟨h0, h1, h3, hd⟩ := Cert.Pre_finite_inputs.Decode.read x0 x1 x2 x3 x4 x5 x6 h
  have key := Cert.LJ.edges_agree
    (hf := Cert.KernelIdeal.Facts₀.shapeCasts_S16x16_S256)
    (g := Cert.KernelIdeal.gather_S256_S3200000x1_S3200000_n_0_n_n_0_1_1)
    (heb := Cert.KernelIdeal.Facts₀.shapeCasts_S3200000_S25000x128)
    (hbe := Cert.KernelIdeal.Facts₀.shapeCasts_S25000x128_S3200000)
    (Cert.LJ.symTable Cert.KernelIdeal.Facts₀.bcast_S_S16x16 Cert.KernelIdeal.Facts₀.transposes_S16x16_S16x16_1_0 x0)
    (Cert.LJ.symTable Cert.KernelIdeal.Facts₀.bcast_S_S16x16 Cert.KernelIdeal.Facts₀.transposes_S16x16_S16x16_1_0 x1)
    (Cert.LJ.symTable Cert.KernelIdeal.Facts₀.bcast_S_S16x16 Cert.KernelIdeal.Facts₀.transposes_S16x16_S16x16_1_0 x2)
    (Cert.LJ.zeroT Cert.KernelIdeal.Facts₀.bcast_S_S16x16)
    (Cert.KernelIdeal.Value.pairCol x5 x6)
    (broadcastInDim Cert.LJ.E ![] Cert.KernelIdeal.Facts₀.bcast_S_S3200000 (constant Cert.LJ.S0 .f32 0x00000000#32))
    (broadcastInDim Cert.LJ.E ![] Cert.KernelIdeal.Facts₀.bcast_S_S3200000 (constant Cert.LJ.S0 .f32 0x40000000#32))
    (broadcastInDim Cert.LJ.E ![] Cert.KernelIdeal.Facts₀.bcast_S_S3200000 (constant Cert.LJ.S0 .f32 0x40C00000#32))
    x3 x4 (Ideal.ofBits .f32 0x40000000#32)
    (fun k => Cert.LJ.zeros_apply Cert.KernelIdeal.Facts₀.bcast_S_S16x16 k) (fun e => Cert.LJ.zeros_apply Cert.KernelIdeal.Facts₀.bcast_S_S3200000 e)
    (fun e => Cert.LJ.splat_apply Cert.KernelIdeal.Facts₀.bcast_S_S3200000 0x40000000#32 e)
    (fun e => Cert.LJ.splat_apply Cert.KernelIdeal.Facts₀.bcast_S_S3200000 0x40C00000#32 e)
    (Cert.LJ.symTable_allReal h0 (Cert.LJ.AllReal.zeros Cert.KernelIdeal.Facts₀.bcast_S_S16x16) _ _ _ _)
    (Cert.LJ.symTable_allReal h1 (Cert.LJ.AllReal.zeros Cert.KernelIdeal.Facts₀.bcast_S_S16x16) _ _ _ _) h3 hd
  exact congrArg (Cert.LJ.atomSums Cert.KernelIdeal.scatter_S100000_S3200000x1_S3200000_n_0_0_1
    Cert.KernelIdeal.Facts₀.bcast_S_S100000 Cert.KernelIdeal.Facts₀.bcast_S100000_S100000x1_0
    Cert.KernelIdeal.Facts₀.bcast_S3200000_S3200000x1_0
    (Cert.LJ.endpointIds ![0, 0] Cert.KernelIdeal.Facts₀.slices_S2x3200000_S1x3200000_0_0
      Cert.KernelIdeal.Facts₀.shapeCasts_S1x3200000_S3200000 x5)) key

end Cert.Proof.Bridge

end
-- ==== Proof.lean ====
/-
  Lennard-Jones energies summed onto atoms: a Pallas kernel for the per-edge arithmetic, between plain jax gathers before
  and a segment sum after, against the jnp reference.

  Per edge, with `sig`, `dlt`, `eps` the pair parameters of the edge's two atom types (entries of symmetrized 16×16
  tables, clipped at zero), `len` its length and `cut` its cutoff, both programs form `2·eps·(x² − x)·cut` with
  `x = (sig / (len − dlt))⁶`, and add it onto the edge's centre atom. They differ in two places. The kernel clips the
  table and then takes the edge's entry, the reference takes the entry and then clips: the same number. The kernel forms
  the sixth power by products, the reference by the power function: on the extended reals these agree on every real and
  on +∞, and differ only at −∞ — which the quotient reaches only as 0 / 0, where the reference itself is not a number.
  The precondition is that every float argument is finite and that no edge has `sig = 0` and `len = dlt` at once.
  The idealization rewrote nothing, so `preserves` is trivial; the three frames are the generated kernel frames and the
  reference's run.
-/
import proofs.«166587_j50697793962073_1_alg».proof.Defs
import proofs.«166587_j50697793962073_1_alg».proof.Proof.Gen.Kernel
import proofs.«166587_j50697793962073_1_alg».proof.Proof.Gen.Kernel.Skeleton
import proofs.«166587_j50697793962073_1_alg».proof.Proof.Gen.Kernel.Launch
import proofs.«166587_j50697793962073_1_alg».proof.Proof.Gen.Kernel.Points
import proofs.«166587_j50697793962073_1_alg».proof.Proof.Gen.Kernel.Frame
import proofs.«166587_j50697793962073_1_alg».proof.Proof.Gen.KernelIdeal
import proofs.«166587_j50697793962073_1_alg».proof.Proof.Gen.KernelIdeal.Skeleton
import proofs.«166587_j50697793962073_1_alg».proof.Proof.Gen.KernelIdeal.Launch
import proofs.«166587_j50697793962073_1_alg».proof.Proof.Gen.KernelIdeal.Points
import proofs.«166587_j50697793962073_1_alg».proof.Proof.Gen.KernelIdeal.Frame
import proofs.«166587_j50697793962073_1_alg».proof.Proof.Gen.ReferenceIdeal
import proofs.«166587_j50697793962073_1_alg».proof.Proof.Gen.Pre_finite_inputs
import proofs.«166587_j50697793962073_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: no operation of its line writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.HandRun.keeps_main_arg0 _), (h c Cert.ReferenceIdeal.main_arg1).trans (Cert.ReferenceIdeal.HandRun.keeps_main_arg1 _),
      (h c Cert.ReferenceIdeal.main_arg2).trans (Cert.ReferenceIdeal.HandRun.keeps_main_arg2 _), (h c Cert.ReferenceIdeal.main_arg3).trans (Cert.ReferenceIdeal.HandRun.keeps_main_arg3 _),
      (h c Cert.ReferenceIdeal.main_arg4).trans (Cert.ReferenceIdeal.HandRun.keeps_main_arg4 _), (h c Cert.ReferenceIdeal.main_arg5).trans (Cert.ReferenceIdeal.HandRun.keeps_main_arg5 _),
      (h c Cert.ReferenceIdeal.main_arg6).trans (Cert.ReferenceIdeal.HandRun.keeps_main_arg6 _)⟩)
    (Cert.ReferenceIdeal.HandRun.run_raw (F := Ideal) m ρ)

/-- Both runs end with the result buffer at the same function of the arguments. -/
theorem algebraic : Cert.algebraic_KernelIdeal_ReferenceIdeal := by
  intro m ρ m' ρ' hpre hagree
  refine ⟨fun c => Cert.KernelIdeal.Value.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c =>
    ⟨(h c Cert.ReferenceIdeal.main_v81).trans ?_,
      (h c Cert.ReferenceIdeal.main_arg0).trans (Cert.ReferenceIdeal.HandRun.keeps_main_arg0 _), (h c Cert.ReferenceIdeal.main_arg1).trans (Cert.ReferenceIdeal.HandRun.keeps_main_arg1 _),
      (h c Cert.ReferenceIdeal.main_arg2).trans (Cert.ReferenceIdeal.HandRun.keeps_main_arg2 _), (h c Cert.ReferenceIdeal.main_arg3).trans (Cert.ReferenceIdeal.HandRun.keeps_main_arg3 _),
      (h c Cert.ReferenceIdeal.main_arg4).trans (Cert.ReferenceIdeal.HandRun.keeps_main_arg4 _), (h c Cert.ReferenceIdeal.main_arg5).trans (Cert.ReferenceIdeal.HandRun.keeps_main_arg5 _),
      (h c Cert.ReferenceIdeal.main_arg6).trans (Cert.ReferenceIdeal.HandRun.keeps_main_arg6 _)⟩)
    (Cert.ReferenceIdeal.HandRun.run_raw (F := Ideal) m' ρ')
  rw [Cert.ReferenceIdeal.HandRun.result_eq m' c, (hagree c).1, (hagree c).2.1, (hagree c).2.2.1, (hagree c).2.2.2.1, (hagree c).2.2.2.2.1,
    (hagree c).2.2.2.2.2.1, (hagree c).2.2.2.2.2.2]
  exact (Bridge.results_agree _ _ _ _ _ _ _ (hpre c)).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
